-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S4096x128 : Shape := ⟨2, ![4096, 128]⟩
abbrev S256x128 : Shape := ⟨2, ![256, 128]⟩
abbrev S128x128 : Shape := ⟨2, ![128, 128]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x128 : S_.BroadcastsInDim S4096x128 (![] : Fin 0 → Fin S4096x128.rank)
  reducesTo_S4096x128_S_d0_1 : S4096x128.ReducesTo [0, 1] S_
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_

variable [Facts]

def fn_part5 {F : FTy → Type} [FloatOps F] (main_arg18 : FVec F S4096x128 .f32) (main_v83 : IVec S_ 1) (main_v84 : FVec F S4096x128 .f32) (main_cst_32 : FVec F S_ .f32) : IVec S_ 1 :=
  let main_v85 : FVec F S4096x128 .f32 := broadcastInDim S4096x128 ![] bcast_S_S4096x128 main_cst_32
  let main_v86 : IVec S4096x128 1 := cmpf .olt main_v84 main_v85
  let main_c_33 : IVec S_ 1 := constantI S_ 1 1#1
  let main_v87 : IVec S_ 1 := (fun x v => Host.reduce IntOp.andi x v reducesTo_S4096x128_S_d0_1 h_S_) main_v86 main_c_33
  let main_v88 : IVec S_ 1 := andi main_v83 main_v87
  let main_v89 : FVec F S4096x128 .f32 := Host.absf main_arg18
  let main_cst_34 : FVec F S_ .f32 := constant S_ .f32 0x7F800000#32
  let main_v90 : FVec F S4096x128 .f32 := broadcastInDim S4096x128 ![] bcast_S_S4096x128 main_cst_34
  let main_v91 : IVec S4096x128 1 := cmpf .olt main_v89 main_v90
  let main_c_35 : IVec S_ 1 := constantI S_ 1 1#1
  let main_v92 : IVec S_ 1 := (fun x v => Host.reduce IntOp.andi x v reducesTo_S4096x128_S_d0_1 h_S_) main_v91 main_c_35
  let main_v93 : IVec S_ 1 := andi main_v88 main_v92
  main_v93

def fn_part4 {F : FTy → Type} [FloatOps F] (main_arg14 : FVec F S128x128 .f32) (main_arg15 : FVec F S4096x128 .f32) (main_arg16 : FVec F S4096x128 .f32) (main_arg17 : FVec F S4096x128 .f32) (main_arg18 : FVec F S4096x128 .f32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S4096x128 .f32 := Host.absf main_arg15
  let main_cst_28 : FVec F S_ .f32 := constant S_ .f32 0x7F800000#32
  let main_v75 : FVec F S4096x128 .f32 := broadcastInDim S4096x128 ![] bcast_S_S4096x128 main_cst_28
  let main_v76 : IVec S4096x128 1 := cmpf .olt main_v74 main_v75
  let main_c_29 : IVec S_ 1 := constantI S_ 1 1#1
  let main_v77 : IVec S_ 1 := (fun x v => Host.reduce IntOp.andi x v reducesTo_S4096x128_S_d0_1 h_S_) main_v76 main_c_29
  let main_v78 : IVec S_ 1 := andi main_v73 main_v77
  let main_v79 : FVec F S4096x128 .f32 := Host.absf main_arg16
  let main_cst_30 : FVec F S_ .f32 := constant S_ .f32 0x7F800000#32
  let main_v80 : FVec F S4096x128 .f32 := broadcastInDim S4096x128 ![] bcast_S_S4096x128 main_cst_30
  let main_v81 : IVec S4096x128 1 := cmpf .olt main_v79 main_v80
  let main_c_31 : IVec S_ 1 := constantI S_ 1 1#1
  let main_v82 : IVec S_ 1 := (fun x v => Host.reduce IntOp.andi x v reducesTo_S4096x128_S_d0_1 h_S_) main_v81 main_c_31
  let main_v83 : IVec S_ 1 := andi main_v78 main_v82
  let main_v84 : FVec F S4096x128 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S128x128 .f32) (main_arg12 : FVec F S256x128 .f32) (main_arg13 : FVec F S128x128 .f32) (main_arg14 : FVec F S128x128 .f32) (main_arg15 : FVec F S4096x128 .f32) (main_arg16 : FVec F S4096x128 .f32) (main_arg17 : FVec F S4096x128 .f32) (main_arg18 : FVec F S4096x128 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S256x128 .f32 := Host.absf main_arg12
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_arg17 main_arg18 main_v63 main_v67

def fn_part2 {F : FTy → Type} [FloatOps F] (main_arg7 : FVec F S256x128 .f32) (main_arg8 : FVec F S128x128 .f32) (main_arg9 : FVec F S128x128 .f32) (main_arg10 : FVec F S256x128 .f32) (main_arg11 : FVec F S128x128 .f32) (main_arg12 : FVec F S256x128 .f32) (main_arg13 : FVec F S128x128 .f32) (main_arg14 : FVec F S128x128 .f32) (main_arg15 : FVec F S4096x128 .f32) (main_arg16 : FVec F S4096x128 .f32) (main_arg17 : FVec F S4096x128 .f32) (main_arg18 : FVec F S4096x128 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S256x128 .f32 := Host.absf main_arg10
  let main_cst_18 : FVec F S_ .f32 := constant S_ .f32 0x7F800000#32
  let main_v50 : FVec F S256x128 .f32 := broadcastInDim S256x128 ![] bcast_S_S256x128 main_cst_18
  fn_part3 (F := F) main_arg11 main_arg12 main_arg13 main_arg14 main_arg15 main_arg16 main_arg17 main_arg18 main_v48 main_v49 main_v50

def fn_part1 {F : FTy → Type} [FloatOps F] (main_arg4 : FVec F S256x128 .f32) (main_arg5 : FVec F S128x128 .f32) (main_arg6 : FVec F S128x128 .f32) (main_arg7 : FVec F S256x128 .f32) (main_arg8 : FVec F S128x128 .f32) (main_arg9 : FVec F S128x128 .f32) (main_arg10 : FVec F S256x128 .f32) (main_arg11 : FVec F S128x128 .f32) (main_arg12 : FVec F S256x128 .f32) (main_arg13 : FVec F S128x128 .f32) (main_arg14 : FVec F S128x128 .f32) (main_arg15 : FVec F S4096x128 .f32) (main_arg16 : FVec F S4096x128 .f32) (main_arg17 : FVec F S4096x128 .f32) (main_arg18 : FVec F S4096x128 .f32) (main_v13 : IVec S_ 1) (main_v16 : IVec S4096x128 1) : IVec S_ 1 :=
  let main_c_5 : IVec S_ 1 := constantI S_ 1 1#1
  let main_v17 : IVec S_ 1 := (fun x v => Host.reduce IntOp.andi x v reducesTo_S4096x128_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S4096x256 .f32) (main_arg1 : FVec F S4096x4096 .f32) (main_arg2 : FVec F S4096x128 .f32) (main_arg3 : FVec F S4096x128 .f32) (main_arg4 : FVec F S256x128 .f32) (main_arg5 : FVec F S128x128 .f32) (main_arg6 : FVec F S128x128 .f32) (main_arg7 : FVec F S256x128 .f32) (main_arg8 : FVec F S128x128 .f32) (main_arg9 : FVec F S128x128 .f32) (main_arg10 : FVec F S256x128 .f32) (main_arg11 : FVec F S128x128 .f32) (main_arg12 : FVec F S256x128 .f32) (main_arg13 : FVec F S128x128 .f32) (main_arg14 : FVec F S128x128 .f32) (main_arg15 : FVec F S4096x128 .f32) (main_arg16 : FVec F S4096x128 .f32) (main_arg17 : FVec F S4096x128 .f32) (main_arg18 : FVec F S4096x128 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S4096x128 .f32 := Host.absf main_arg3
  let main_cst_4 : FVec F S_ .f32 := constant S_ .f32 0x7F800000#32
  let main_v15 : FVec F S4096x128 .f32 := broadcastInDim S4096x128 ![] bcast_S_S4096x128 main_cst_4
  let main_v16 : IVec S4096x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S4096x256 : Shape := ⟨2, ![4096, 256]⟩
abbrev S4096x4096 : Shape := ⟨2, ![4096, 4096]⟩
abbrev S4096x128 : Shape := ⟨2, ![4096, 128]⟩
abbrev S256x128 : Shape := ⟨2, ![256, 128]⟩
abbrev S128x128 : Shape := ⟨2, ![128, 128]⟩
abbrev S4096x512 : Shape := ⟨2, ![4096, 512]⟩
abbrev S_ : Shape := ⟨0, ![]⟩
abbrev S256x512 : Shape := ⟨2, ![256, 512]⟩
abbrev S128x512 : Shape := ⟨2, ![128, 512]⟩
abbrev S512x512 : Shape := ⟨2, ![512, 512]⟩
abbrev S512x4096 : Shape := ⟨2, ![512, 4096]⟩
abbrev S512x128 : Shape := ⟨2, ![512, 128]⟩

abbrev nBuf : Space → Nat
  | .hbm => 28
  | .vmem => 18
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x128, .f32⟩
  | .hbm, ⟨3, _⟩ => ⟨S4096x128, .f32⟩
  | .hbm, ⟨4, _⟩ => ⟨S256x128, .f32⟩
  | .hbm, ⟨5, _⟩ => ⟨S128x128, .f32⟩
  | .hbm, ⟨6, _⟩ => ⟨S128x128, .f32⟩
  | .hbm, ⟨7, _⟩ => ⟨S256x128, .f32⟩
  | .hbm, ⟨8, _⟩ => ⟨S128x128, .f32⟩
  | .hbm, ⟨9, _⟩ => ⟨S128x128, .f32⟩
  | .hbm, ⟨10, _⟩ => ⟨S256x128, .f32⟩
  | .hbm, ⟨11, _⟩ => ⟨S128x128, .f32⟩
  | .hbm, ⟨12, _⟩ => ⟨S256x128, .f32⟩
  | .hbm, ⟨13, _⟩ => ⟨S128x128, .f32⟩
  | .hbm, ⟨14, _⟩ => ⟨S128x128, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S4096x512, .f32⟩
  | .hbm, ⟨20, _⟩ => ⟨S_, .f32⟩
  | .hbm, ⟨21, _⟩ => ⟨S128x128, .f32⟩
  | .hbm, ⟨22, _⟩ => ⟨S256x512, .f32⟩
  | .hbm, ⟨23, _⟩ => ⟨S128x512, .f32⟩
  | .hbm, ⟨24, _⟩ => ⟨S128x512, .f32⟩
  | .hbm, ⟨25, _⟩ => ⟨S512x512, .f32⟩
  | .hbm, ⟨26, _⟩ => ⟨S4096x128, .f32⟩
  | .hbm, ⟨27, _⟩ => ⟨S4096x128, .f32⟩
  | .local _ .vmem, ⟨0, _⟩ => ⟨S512x4096, .f32⟩
  | .local _ .vmem, ⟨1, _⟩ => ⟨S512x4096, .f32⟩
  | .local _ .vmem, ⟨2, _⟩ => ⟨S4096x512, .f32⟩
  | .local _ .vmem, ⟨3, _⟩ => ⟨S512x512, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_cst : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6_0 : Ref sig .tc := ⟨.hbm, 26, rfl⟩
abbrev main_v6_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  concatenates_S4096x256_S4096x128_S4096x128_S4096x512_d1 : Shape.Concatenates [S4096x256, S4096x128, S4096x128] S4096x512 1
  bcast_S_S128x128 : S_.BroadcastsInDim S128x128 (![] : Fin 0 → Fin S128x128.rank)
  concatenates_S256x128_S256x128_S256x128_S256x128_S256x512_d1 : Shape.Concatenates [S256x128, S256x128, S256x128, S256x128] S256x512 1
  concatenates_S128x128_S128x128_S128x128_S128x128_S128x512_d1 : Shape.Concatenates [S128x128, S128x128, S128x128, S128x128] S128x512 1
  concatenates_S256x512_S128x512_S128x512_S512x512_d0 : Shape.Concatenates [S256x512, S128x512, S128x512] S512x512 0
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  slices_S512x512_o0_0_S512x128 : S512x512.Slices ![0, 0] S512x128
  inb_S512x128_S512x128_0_0 : ∀ a, (![0, 0] : Fin 2 → Nat) a + S512x128.size a ≤ S512x128.size a
  h_S512x128 : 0 < S512x128.numel
  slices_S512x512_o0_128_S512x128 : S512x512.Slices ![0, 128] S512x128
  slices_S512x512_o0_256_S512x128 : S512x512.Slices ![0, 256] S512x128
  slices_S512x512_o0_384_S512x128 : S512x512.Slices ![0, 384] S512x128
  dot_S512x4096_S4096x512_S512x512_1_0_0_1_n_n_wf : DotDims.WF S512x4096 S4096x512 S512x512 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .f32 = 32 ∨ (Rect.block (s := S4096x512) S4096x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S4096x128.size a
  hwx0_3 : ∀ i : grid0.Coords, EltTy.bits .f32 = 32 ∨ (Rect.block (s := S4096x128) S512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S4096x128.size a
  hwx0_4 : ∀ i : grid0.Coords, EltTy.bits .f32 = 32 ∨ (Rect.block (s := S4096x128) S512x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S4096x128.size a
  hwx0_5 : ∀ i : grid0.Coords, EltTy.bits .f32 = 32 ∨ (Rect.block (s := S4096x128) S512x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S4096x128.size a
  hwx0_6 : ∀ i : grid0.Coords, EltTy.bits .f32 = 32 ∨ (Rect.block (s := S4096x128) S512x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S4096x128.size a
  hwx0_7 : ∀ i : grid0.Coords, EltTy.bits .f32 = 32 ∨ (Rect.block (s := S4096x128) S512x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x128.size a ≤ S4096x128.size a
  hwx0_8 : ∀ i : grid0.Coords, EltTy.bits .f32 = 32 ∨ (Rect.block (s := S4096x128) S512x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x128.size a ≤ S4096x128.size a
  hwx0_9 : ∀ i : grid0.Coords, EltTy.bits .f32 = 32 ∨ (Rect.block (s := S4096x128) S512x128.size (cc0_transform_9 i) (hinb0_9 i)).WholeWords (EltTy.packing .f32)

variable [Facts₀]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg15) S512x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg16) S512x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg17) S512x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg18) S512x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_0) S512x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_1) S512x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S4096x128 : Shape := ⟨2, ![4096, 128]⟩
abbrev S256x128 : Shape := ⟨2, ![256, 128]⟩
abbrev S128x128 : Shape := ⟨2, ![128, 128]⟩
abbrev S_ : Shape := ⟨0, ![]⟩

abbrev nBuf : Space → Nat
  | .hbm => 91
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x128, .f32⟩
  | .hbm, ⟨3, _⟩ => ⟨S4096x128, .f32⟩
  | .hbm, ⟨4, _⟩ => ⟨S256x128, .f32⟩
  | .hbm, ⟨5, _⟩ => ⟨S128x128, .f32⟩
  | .hbm, ⟨6, _⟩ => ⟨S128x128, .f32⟩
  | .hbm, ⟨7, _⟩ => ⟨S256x128, .f32⟩
  | .hbm, ⟨8, _⟩ => ⟨S128x128, .f32⟩
  | .hbm, ⟨9, _⟩ => ⟨S128x128, .f32⟩
  | .hbm, ⟨10, _⟩ => ⟨S256x128, .f32⟩
  | .hbm, ⟨11, _⟩ => ⟨S128x128, .f32⟩
  | .hbm, ⟨12, _⟩ => ⟨S256x128, .f32⟩
  | .hbm, ⟨13, _⟩ => ⟨S128x128, .f32⟩
  | .hbm, ⟨14, _⟩ => ⟨S128x128, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S4096x128, .f32⟩
  | .hbm, ⟨21, _⟩ => ⟨S4096x128, .f32⟩
  | .hbm, ⟨22, _⟩ => ⟨S4096x128, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S4096x128, .f32⟩
  | .hbm, ⟨27, _⟩ => ⟨S4096x128, .f32⟩
  | .hbm, ⟨28, _⟩ => ⟨S4096x128, .f32⟩
  | .hbm, ⟨29, _⟩ => ⟨S4096x128, .f32⟩
  | .hbm, ⟨30, _⟩ => ⟨S_, .f32⟩
  | .hbm, ⟨31, _⟩ => ⟨S4096x128, .f32⟩
  | .hbm, ⟨32, _⟩ => ⟨S4096x128, .f32⟩
  | .hbm, ⟨33, _⟩ => ⟨S_, .f32⟩
  | .hbm, ⟨34, _⟩ => ⟨S4096x128, .f32⟩
  | .hbm, ⟨35, _⟩ => ⟨S4096x128, .f32⟩
  | .hbm, ⟨36, _⟩ => ⟨S4096x128, .f32⟩
  | .hbm, ⟨37, _⟩ => ⟨S4096x128, .f32⟩
  | .hbm, ⟨38, _⟩ => ⟨S4096x128, .f32⟩
  | .hbm, ⟨39, _⟩ => ⟨S4096x128, .f32⟩
  | .hbm, ⟨40, _⟩ => ⟨S4096x128, .f32⟩
  | .hbm, ⟨41, _⟩ => ⟨S4096x128, .f32⟩
  | .hbm, ⟨42, _⟩ => ⟨S4096x128, .f32⟩
  | .hbm, ⟨43, _⟩ => ⟨S4096x128, .f32⟩
  | .hbm, ⟨44, _⟩ => ⟨S4096x128, .f32⟩
  | .hbm, ⟨45, _⟩ => ⟨S4096x128, .f32⟩
  | .hbm, ⟨46, _⟩ => ⟨S4096x128, .f32⟩
  | .hbm, ⟨47, _⟩ => ⟨S_, .f32⟩
  | .hbm, ⟨48, _⟩ => ⟨S4096x128, .f32⟩
  | .hbm, ⟨49, _⟩ => ⟨S4096x128, .f32⟩
  | .hbm, ⟨50, _⟩ => ⟨S_, .f32⟩
  | .hbm, ⟨51, _⟩ => ⟨S4096x128, .f32⟩
  | .hbm, ⟨52, _⟩ => ⟨S4096x128, .f32⟩
  | .hbm, ⟨53, _⟩ => ⟨S4096x128, .f32⟩
  | .hbm, ⟨54, _⟩ => ⟨S4096x128, .f32⟩
  | .hbm, ⟨55, _⟩ => ⟨S4096x128, .f32⟩
  | .hbm, ⟨56, _⟩ => ⟨S4096x128, .f32⟩
  | .hbm, ⟨57, _⟩ => ⟨S4096x128, .f32⟩
  | .hbm, ⟨58, _⟩ => ⟨S4096x128, .f32⟩
  | .hbm, ⟨59, _⟩ => ⟨S4096x128, .f32⟩
  | .hbm, ⟨60, _⟩ => ⟨S4096x128, .f32⟩
  | .hbm, ⟨61, _⟩ => ⟨S4096x128, .f32⟩
  | .hbm, ⟨62, _⟩ => ⟨S4096x128, .f32⟩
  | .hbm, ⟨63, _⟩ => ⟨S4096x128, .f32⟩
  | .hbm, ⟨64, _⟩ => ⟨S_, .f32⟩
  | .hbm, ⟨65, _⟩ => ⟨S4096x128, .f32⟩
  | .hbm, ⟨66, _⟩ => ⟨S4096x128, .f32⟩
  | .hbm, ⟨67, _⟩ => ⟨S_, .f32⟩
  | .hbm, ⟨68, _⟩ => ⟨S4096x128, .f32⟩
  | .hbm, ⟨69, _⟩ => ⟨S4096x128, .f32⟩
  | .hbm, ⟨70, _⟩ => ⟨S4096x128, .f32⟩
  | .hbm, ⟨71, _⟩ => ⟨S4096x128, .f32⟩
  | .hbm, ⟨72, _⟩ => ⟨S4096x128, .f32⟩
  | .hbm, ⟨73, _⟩ => ⟨S4096x128, .f32⟩
  | .hbm, ⟨74, _⟩ => ⟨S4096x128, .f32⟩
  | .hbm, ⟨75, _⟩ => ⟨S4096x128, .f32⟩
  | .hbm, ⟨76, _⟩ => ⟨S4096x128, .f32⟩
  | .hbm, ⟨77, _⟩ => ⟨S4096x128, .f32⟩
  | .hbm, ⟨78, _⟩ => ⟨S4096x128, .f32⟩
  | .hbm, ⟨79, _⟩ => ⟨S4096x128, .f32⟩
  | .hbm, ⟨80, _⟩ => ⟨S4096x128, .f32⟩
  | .hbm, ⟨81, _⟩ => ⟨S4096x128, .f32⟩
  | .hbm, ⟨82, _⟩ => ⟨S4096x128, .f32⟩
  | .hbm, ⟨83, _⟩ => ⟨S_, .f32⟩
  | .hbm, ⟨84, _⟩ => ⟨S4096x128, .f32⟩
  | .hbm, ⟨85, _⟩ => ⟨S4096x128, .f32⟩
  | .hbm, ⟨86, _⟩ => ⟨S_, .f32⟩
  | .hbm, ⟨87, _⟩ => ⟨S4096x128, .f32⟩
  | .hbm, ⟨88, _⟩ => ⟨S4096x128, .f32⟩
  | .hbm, ⟨89, _⟩ => ⟨S4096x128, .f32⟩
  | .hbm, ⟨90, _⟩ => ⟨S4096x128, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_cst_0 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_1 : Ref sig .tc := ⟨.hbm, 47, rfl⟩
abbrev main_v26 : Ref sig .tc := ⟨.hbm, 48, rfl⟩
abbrev main_v27 : Ref sig .tc := ⟨.hbm, 49, rfl⟩
abbrev main_cst_2 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_3 : Ref sig .tc := ⟨.hbm, 64, rfl⟩
abbrev main_v41 : Ref sig .tc := ⟨.hbm, 65, rfl⟩
abbrev main_v42 : Ref sig .tc := ⟨.hbm, 66, rfl⟩
abbrev main_cst_4 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_5 : Ref sig .tc := ⟨.hbm, 83, rfl⟩
abbrev main_v58 : Ref sig .tc := ⟨.hbm, 84, rfl⟩
abbrev main_v59 : Ref sig .tc := ⟨.hbm, 85, rfl⟩
abbrev main_cst_6 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩

abbrev nD : Nat := 1
abbrev τ : Topo := Topo.v7x

variable {F : FTy → Type} [FloatOps F]

class Facts₀ : Prop where
  bcast_S_S4096x128 : S_.BroadcastsInDim S4096x128 (![] : Fin 0 → Fin S4096x128.rank)
  dot_S4096x256_S256x128_S4096x128_1_0_0_1_n_n_wf : DotDims.WF S4096x256 S256x128 S4096x128 [1] [0] [0] [1] [] []
  dot_S4096x4096_S4096x128_S4096x128_1_0_0_1_n_n_wf : DotDims.WF S4096x4096 S4096x128 S4096x128 [1] [0] [0] [1] [] []
  dot_S4096x128_S128x128_S4096x128_1_0_0_1_n_n_wf : DotDims.WF S4096x128 S128x128 S4096x128 [1] [0] [0] [1] [] []

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

class Facts : Prop extends Facts₀ where

variable [Facts]
-- ==== Proof.FrameK.lean ====
/-
  The frame of the program `Kernel`, at any float instance: @main is seven host operations (five joins of argument
  arrays, a zero constant and its broadcast) and then ONE pipelined region over 8 grid points. Point `t` is handed row
  block `t` (512 rows) of the adjacency matrix, of the cell state and of the four bias arrays, the whole joined
  feature matrix [X | h | c] and the whole joined weight matrix at every point, and stores one 512 × 128 block into
  each of the two results. The body only loads whole staging buffers and stores whole blocks, so after the body each
  result's buffer holds the stored payload and every input's buffer is as fetched; no argument array is an output of
  the region or the target of a host operation, so every argument ends as launched.
-/
import proofs.«122012_g21629455302669_cont_8to1_1577_3_alg».proof.Proof.Gen.Kernel.Launch
import proofs.«122012_g21629455302669_cont_8to1_1577_3_alg».proof.Proof.Gen.Kernel.Skeleton
import proofs.«122012_g21629455302669_cont_8to1_1577_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The TensorCore's buffers when the region is entered: the launch contents after the seven host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the seven results of the host operations is found by the region as launched. -/
theorem V_kept (c : Dev nD) (b : Ref sig .tc) (h0 : b ≠ main_v0) (h1 : b ≠ main_cst) (h2 : b ≠ main_v1) (h3 : b ≠ main_v2)
    (h4 : b ≠ main_v3) (h5 : b ≠ main_v4) (h6 : b ≠ main_v5) : V m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.nary_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6⟩))

theorem V_main_arg0 (c : Dev nD) : V m c main_arg0 = m ((c : Thread nD τ).loc main_arg0) :=
  V_kept m c main_arg0 (by decide) (by decide) (by decide) (by decide) (by decide) (by decide) (by decide)
theorem V_main_arg1 (c : Dev nD) : V m c main_arg1 = m ((c : Thread nD τ).loc main_arg1) :=
  V_kept m c main_arg1 (by decide) (by decide) (by decide) (by decide) (by decide) (by decide) (by decide)
theorem V_main_arg2 (c : Dev nD) : V m c main_arg2 = m ((c : Thread nD τ).loc main_arg2) :=
  V_kept m c main_arg2 (by decide) (by decide) (by decide) (by decide) (by decide) (by decide) (by decide)
theorem V_main_arg3 (c : Dev nD) : V m c main_arg3 = m ((c : Thread nD τ).loc main_arg3) :=
  V_kept m c main_arg3 (by decide) (by decide) (by decide) (by decide) (by decide) (by decide) (by decide)
theorem V_main_arg4 (c : Dev nD) : V m c main_arg4 = m ((c : Thread nD τ).loc main_arg4) :=
  V_kept m c main_arg4 (by decide) (by decide) (by decide) (by decide) (by decide) (by decide) (by decide)
theorem V_main_arg5 (c : Dev nD) : V m c main_arg5 = m ((c : Thread nD τ).loc main_arg5) :=
  V_kept m c main_arg5 (by decide) (by decide) (by decide) (by decide) (by decide) (by decide) (by decide)
theorem V_main_arg6 (c : Dev nD) : V m c main_arg6 = m ((c : Thread nD τ).loc main_arg6) :=
  V_kept m c main_arg6 (by decide) (by decide) (by decide) (by decide) (by decide) (by decide) (by decide)
theorem V_main_arg7 (c : Dev nD) : V m c main_arg7 = m ((c : Thread nD τ).loc main_arg7) :=
  V_kept m c main_arg7 (by decide) (by decide) (by decide) (by decide) (by decide) (by decide) (by decide)
theorem V_main_arg8 (c : Dev nD) : V m c main_arg8 = m ((c : Thread nD τ).loc main_arg8) :=
  V_kept m c main_arg8 (by decide) (by decide) (by decide) (by decide) (by decide) (by decide) (by decide)
theorem V_main_arg9 (c : Dev nD) : V m c main_arg9 = m ((c : Thread nD τ).loc main_arg9) :=
  V_kept m c main_arg9 (by decide) (by decide) (by decide) (by decide) (by decide) (by decide) (by decide)
theorem V_main_arg10 (c : Dev nD) : V m c main_arg10 = m ((c : Thread nD τ).loc main_arg10) :=
  V_kept m c main_arg10 (by decide) (by decide) (by decide) (by decide) (by decide) (by decide) (by decide)
theorem V_main_arg11 (c : Dev nD) : V m c main_arg11 = m ((c : Thread nD τ).loc main_arg11) :=
  V_kept m c main_arg11 (by decide) (by decide) (by decide) (by decide) (by decide) (by decide) (by decide)
theorem V_main_arg12 (c : Dev nD) : V m c main_arg12 = m ((c : Thread nD τ).loc main_arg12) :=
  V_kept m c main_arg12 (by decide) (by decide) (by decide) (by decide) (by decide) (by decide) (by decide)
theorem V_main_arg13 (c : Dev nD) : V m c main_arg13 = m ((c : Thread nD τ).loc main_arg13) :=
  V_kept m c main_arg13 (by decide) (by decide) (by decide) (by decide) (by decide) (by decide) (by decide)
theorem V_main_arg14 (c : Dev nD) : V m c main_arg14 = m ((c : Thread nD τ).loc main_arg14) :=
  V_kept m c main_arg14 (by decide) (by decide) (by decide) (by decide) (by decide) (by decide) (by decide)
theorem V_main_arg15 (c : Dev nD) : V m c main_arg15 = m ((c : Thread nD τ).loc main_arg15) :=
  V_kept m c main_arg15 (by decide) (by decide) (by decide) (by decide) (by decide) (by decide) (by decide)
theorem V_main_arg16 (c : Dev nD) : V m c main_arg16 = m ((c : Thread nD τ).loc main_arg16) :=
  V_kept m c main_arg16 (by decide) (by decide) (by decide) (by decide) (by decide) (by decide) (by decide)
theorem V_main_arg17 (c : Dev nD) : V m c main_arg17 = m ((c : Thread nD τ).loc main_arg17) :=
  V_kept m c main_arg17 (by decide) (by decide) (by decide) (by decide) (by decide) (by decide) (by decide)
theorem V_main_arg18 (c : Dev nD) : V m c main_arg18 = m ((c : Thread nD τ).loc main_arg18) :=
  V_kept m c main_arg18 (by decide) (by decide) (by decide) (by decide) (by decide) (by decide) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or kept from before. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or kept from before. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or kept from before. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or kept from before. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or kept from before. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or kept from before. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or kept from before. -/
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or kept from before. -/
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- Every argument array ends as launched: one staged by an input window by the library's reading of an input's array,
    any other because the region leaves the buffers it does not stage alone; each was found as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_arg0 (Pipeline.mem_restRefs_of main_arg0 (by decide) (by decide))).trans (V_main_arg0 m c),
      ((h c).1 0).trans (((dats 0 c).arrAt_in 0 rfl _).trans ((hA c 0).trans (V_main_arg1 m c))),
      ((h c).2 main_arg2 (Pipeline.mem_restRefs_of main_arg2 (by decide) (by decide))).trans (V_main_arg2 m c),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).1 4).trans (((dats 0 c).arrAt_in 4 rfl _).trans ((hA c 4).trans (V_main_arg15 m c))),
      ((h c).1 5).trans (((dats 0 c).arrAt_in 5 rfl _).trans ((hA c 5).trans (V_main_arg16 m c))),
      ((h c).1 6).trans (((dats 0 c).arrAt_in 6 rfl _).trans ((hA c 6).trans (V_main_arg17 m c))),
      ((h c).1 7).trans (((dats 0 c).arrAt_in 7 rfl _).trans ((hA c 7).trans (V_main_arg18 m c)))⟩) h

/-! ## The body's accesses and what it leaves in the results' buffers -/

abbrev rA : Rect S512x4096 := Rect.unit (s := S512x4096) ![0, 0] S512x4096.size inb_S512x4096_S512x4096_0_0
abbrev rZ : Rect S4096x512 := Rect.unit (s := S4096x512) ![0, 0] S4096x512.size inb_S4096x512_S4096x512_0_0
abbrev rW : Rect S512x512 := Rect.unit (s := S512x512) ![0, 0] S512x512.size inb_S512x512_S512x512_0_0
abbrev rB : Rect S512x128 := Rect.unit (s := S512x128) ![0, 0] S512x128.size inb_S512x128_S512x128_0_0

/-- The new hidden state's block: the one store into window 8's buffer, over the eight input blocks
    (adjacency rows, features, weights, cell state, biases i, f, g, o). -/
def out0_8 (x0 : Vec F S512x4096 .f32) (x1 : Vec F S4096x512 .f32) (x2 : Vec F S512x512 .f32) (x3 x4 x5 x6 x7 : Vec F S512x128 .f32) : Vec F S512x128 .f32 :=
  View.canon [⟨rB, k0_pay3 (View.ld x0 rA) (View.ld x1 rZ) (View.ld x2 rW) (View.ld x4 rB) (View.ld x5 rB) (View.ld x7 rB) (View.ld x6 rB) (View.ld x3 rB)⟩]

/-- The new cell state's block: the one store into window 9's buffer. -/
def out0_9 (x0 : Vec F S512x4096 .f32) (x1 : Vec F S4096x512 .f32) (x2 : Vec F S512x512 .f32) (x3 x4 x5 x6 : Vec F S512x128 .f32) : Vec F S512x128 .f32 :=
  View.canon [⟨rB, k0_pay2 (View.ld x0 rA) (View.ld x1 rZ) (View.ld x2 rW) (View.ld x4 rB) (View.ld x5 rB) (View.ld x6 rB) (View.ld x3 rB)⟩]

/-- One store through the whole-block rectangle covers the block. -/
theorem coverB (p0 : Vec F S512x128 .f32) (y : S512x128.Idx) :
    ∃ pc ∈ ([⟨rB, p0⟩] : List (View.Piece (Elt F) S512x128 .f32)), y ∈ pc.1.set :=
  View.cover_of_tiled [⟨rB, p0⟩] S512x128.size (by rfl) y

/-! ## The body's triple -/

set_option maxHeartbeats 4000000 in
/-- The body on whole staging buffers, the inputs' at contents `x0 … x7` and the results' at anything, returns with the
    inputs' as they were and the results' at `out0_8`, `out0_9` of the inputs'. -/
theorem sound_kernel (c : Dev nD) (E : Set ℕ) (i : grid0.Coords)
    (arg1 : Memref sig .tc .vmem S512x4096 .f32) (harg1 : arg1.IsWhole) (arg2 : Memref sig .tc .vmem S4096x512 .f32) (harg2 : arg2.IsWhole)
    (arg3 : Memref sig .tc .vmem S512x512 .f32) (harg3 : arg3.IsWhole) (arg4 : Memref sig .tc .vmem S512x128 .f32) (harg4 : arg4.IsWhole)
    (arg5 : Memref sig .tc .vmem S512x128 .f32) (harg5 : arg5.IsWhole) (arg6 : Memref sig .tc .vmem S512x128 .f32) (harg6 : arg6.IsWhole)
    (arg7 : Memref sig .tc .vmem S512x128 .f32) (harg7 : arg7.IsWhole) (arg8 : Memref sig .tc .vmem S512x128 .f32) (harg8 : arg8.IsWhole)
    (arg9 : Memref sig .tc .vmem S512x128 .f32) (harg9 : arg9.IsWhole) (arg10 : Memref sig .tc .vmem S512x128 .f32) (harg10 : arg10.IsWhole)
    (x0 : Vec F S512x4096 .f32) (x1 : Vec F S4096x512 .f32) (x2 : Vec F S512x512 .f32) (x3 x4 x5 x6 x7 : Vec F S512x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out0_8 x0 x1 x2 x3 x4 x5 x6 x7)
            ∗ owns (c : Thread nD τ) arg10 fullShare (out0_9 x0 x1 x2 x3 x4 x5 x6)) -∗ K ⟨⟩))
      ⊢ wp frame (wpE (defs₀ (F := F)) Variants.none c none) E (cc0__cell_kernel i arg1 harg1 arg2 harg2 arg3 harg3 arg4 harg4 arg5 harg5 arg6 harg6 arg7 harg7 arg8 harg8 arg9 harg9 arg10 harg10) K := by
  simp only [cc0__cell_kernel_eq_skeleton]; unfold cc0__cell_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverB _)
  iexists _; isplitr
  swap; · iexact H9
  ipureintro
  exact View.read_writes_eq_canon _ _ _ (coverB _)

/-! ## The pipeline's proof data -/

/-- After the body at point `t` each input's buffer holds its block and each result's buffer the stored block of the
    input blocks; the invariant is the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
    | ⟨9, _⟩ => out0_9 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before_in0 m (dats m 0 c) (A_eq m c 0) (after0_0 m c) t d
theorem before0_1 (c : Dev nD) (t : Fin cfg0.N) (d) : (dats m 0 c).before 1 t d = iblk m c 1 t :=
  before_in1 m (dats m 0 c) (A_eq m c 1) (after0_1 m c) t d
theorem before0_2 (c : Dev nD) (t : Fin cfg0.N) (d) : (dats m 0 c).before 2 t d = iblk m c 2 t :=
  before_in2 m (dats m 0 c) (A_eq m c 2) (after0_2 m c) t d
theorem before0_3 (c : Dev nD) (t : Fin cfg0.N) (d) : (dats m 0 c).before 3 t d = iblk m c 3 t :=
  before_in3 m (dats m 0 c) (A_eq m c 3) (after0_3 m c) t d
theorem before0_4 (c : Dev nD) (t : Fin cfg0.N) (d) : (dats m 0 c).before 4 t d = iblk m c 4 t :=
  before_in4 m (dats m 0 c) (A_eq m c 4) (after0_4 m c) t d
theorem before0_5 (c : Dev nD) (t : Fin cfg0.N) (d) : (dats m 0 c).before 5 t d = iblk m c 5 t :=
  before_in5 m (dats m 0 c) (A_eq m c 5) (after0_5 m c) t d
theorem before0_6 (c : Dev nD) (t : Fin cfg0.N) (d) : (dats m 0 c).before 6 t d = iblk m c 6 t :=
  before_in6 m (dats m 0 c) (A_eq m c 6) (after0_6 m c) t d
theorem before0_7 (c : Dev nD) (t : Fin cfg0.N) (d) : (dats m 0 c).before 7 t d = iblk m c 7 t :=
  before_in7 m (dats m 0 c) (A_eq m c 7) (after0_7 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, faulting nowhere, with every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Frame

end
-- ==== Proof.FrameKI.lean ====
/-
  The frame of the program `KernelIdeal`, at any float instance: @main is seven host operations (five joins of argument
  arrays, a zero constant and its broadcast) and then ONE pipelined region over 8 grid points. Point `t` is handed row
  block `t` (512 rows) of the adjacency matrix, of the cell state and of the four bias arrays, the whole joined
  feature matrix [X | h | c] and the whole joined weight matrix at every point, and stores one 512 × 128 block into
  each of the two results. The body only loads whole staging buffers and stores whole blocks, so after the body each
  result's buffer holds the stored payload and every input's buffer is as fetched; no argument array is an output of
  the region or the target of a host operation, so every argument ends as launched.
-/
import proofs.«122012_g21629455302669_cont_8to1_1577_3_alg».proof.Proof.Gen.KernelIdeal.Launch
import proofs.«122012_g21629455302669_cont_8to1_1577_3_alg».proof.Proof.Gen.KernelIdeal.Skeleton
import proofs.«122012_g21629455302669_cont_8to1_1577_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The TensorCore's buffers when the region is entered: the launch contents after the seven host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the seven results of the host operations is found by the region as launched. -/
theorem V_kept (c : Dev nD) (b : Ref sig .tc) (h0 : b ≠ main_v0) (h1 : b ≠ main_cst) (h2 : b ≠ main_v1) (h3 : b ≠ main_v2)
    (h4 : b ≠ main_v3) (h5 : b ≠ main_v4) (h6 : b ≠ main_v5) : V m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.nary_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6⟩))

theorem V_main_arg0 (c : Dev nD) : V m c main_arg0 = m ((c : Thread nD τ).loc main_arg0) :=
  V_kept m c main_arg0 (by decide) (by decide) (by decide) (by decide) (by decide) (by decide) (by decide)
theorem V_main_arg1 (c : Dev nD) : V m c main_arg1 = m ((c : Thread nD τ).loc main_arg1) :=
  V_kept m c main_arg1 (by decide) (by decide) (by decide) (by decide) (by decide) (by decide) (by decide)
theorem V_main_arg2 (c : Dev nD) : V m c main_arg2 = m ((c : Thread nD τ).loc main_arg2) :=
  V_kept m c main_arg2 (by decide) (by decide) (by decide) (by decide) (by decide) (by decide) (by decide)
theorem V_main_arg3 (c : Dev nD) : V m c main_arg3 = m ((c : Thread nD τ).loc main_arg3) :=
  V_kept m c main_arg3 (by decide) (by decide) (by decide) (by decide) (by decide) (by decide) (by decide)
theorem V_main_arg4 (c : Dev nD) : V m c main_arg4 = m ((c : Thread nD τ).loc main_arg4) :=
  V_kept m c main_arg4 (by decide) (by decide) (by decide) (by decide) (by decide) (by decide) (by decide)
theorem V_main_arg5 (c : Dev nD) : V m c main_arg5 = m ((c : Thread nD τ).loc main_arg5) :=
  V_kept m c main_arg5 (by decide) (by decide) (by decide) (by decide) (by decide) (by decide) (by decide)
theorem V_main_arg6 (c : Dev nD) : V m c main_arg6 = m ((c : Thread nD τ).loc main_arg6) :=
  V_kept m c main_arg6 (by decide) (by decide) (by decide) (by decide) (by decide) (by decide) (by decide)
theorem V_main_arg7 (c : Dev nD) : V m c main_arg7 = m ((c : Thread nD τ).loc main_arg7) :=
  V_kept m c main_arg7 (by decide) (by decide) (by decide) (by decide) (by decide) (by decide) (by decide)
theorem V_main_arg8 (c : Dev nD) : V m c main_arg8 = m ((c : Thread nD τ).loc main_arg8) :=
  V_kept m c main_arg8 (by decide) (by decide) (by decide) (by decide) (by decide) (by decide) (by decide)
theorem V_main_arg9 (c : Dev nD) : V m c main_arg9 = m ((c : Thread nD τ).loc main_arg9) :=
  V_kept m c main_arg9 (by decide) (by decide) (by decide) (by decide) (by decide) (by decide) (by decide)
theorem V_main_arg10 (c : Dev nD) : V m c main_arg10 = m ((c : Thread nD τ).loc main_arg10) :=
  V_kept m c main_arg10 (by decide) (by decide) (by decide) (by decide) (by decide) (by decide) (by decide)
theorem V_main_arg11 (c : Dev nD) : V m c main_arg11 = m ((c : Thread nD τ).loc main_arg11) :=
  V_kept m c main_arg11 (by decide) (by decide) (by decide) (by decide) (by decide) (by decide) (by decide)
theorem V_main_arg12 (c : Dev nD) : V m c main_arg12 = m ((c : Thread nD τ).loc main_arg12) :=
  V_kept m c main_arg12 (by decide) (by decide) (by decide) (by decide) (by decide) (by decide) (by decide)
theorem V_main_arg13 (c : Dev nD) : V m c main_arg13 = m ((c : Thread nD τ).loc main_arg13) :=
  V_kept m c main_arg13 (by decide) (by decide) (by decide) (by decide) (by decide) (by decide) (by decide)
theorem V_main_arg14 (c : Dev nD) : V m c main_arg14 = m ((c : Thread nD τ).loc main_arg14) :=
  V_kept m c main_arg14 (by decide) (by decide) (by decide) (by decide) (by decide) (by decide) (by decide)
theorem V_main_arg15 (c : Dev nD) : V m c main_arg15 = m ((c : Thread nD τ).loc main_arg15) :=
  V_kept m c main_arg15 (by decide) (by decide) (by decide) (by decide) (by decide) (by decide) (by decide)
theorem V_main_arg16 (c : Dev nD) : V m c main_arg16 = m ((c : Thread nD τ).loc main_arg16) :=
  V_kept m c main_arg16 (by decide) (by decide) (by decide) (by decide) (by decide) (by decide) (by decide)
theorem V_main_arg17 (c : Dev nD) : V m c main_arg17 = m ((c : Thread nD τ).loc main_arg17) :=
  V_kept m c main_arg17 (by decide) (by decide) (by decide) (by decide) (by decide) (by decide) (by decide)
theorem V_main_arg18 (c : Dev nD) : V m c main_arg18 = m ((c : Thread nD τ).loc main_arg18) :=
  V_kept m c main_arg18 (by decide) (by decide) (by decide) (by decide) (by decide) (by decide) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or kept from before. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or kept from before. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or kept from before. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or kept from before. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or kept from before. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or kept from before. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or kept from before. -/
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or kept from before. -/
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- Every argument array ends as launched: one staged by an input window by the library's reading of an input's array,
    any other because the region leaves the buffers it does not stage alone; each was found as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_arg0 (Pipeline.mem_restRefs_of main_arg0 (by decide) (by decide))).trans (V_main_arg0 m c),
      ((h c).1 0).trans (((dats 0 c).arrAt_in 0 rfl _).trans ((hA c 0).trans (V_main_arg1 m c))),
      ((h c).2 main_arg2 (Pipeline.mem_restRefs_of main_arg2 (by decide) (by decide))).trans (V_main_arg2 m c),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).1 4).trans (((dats 0 c).arrAt_in 4 rfl _).trans ((hA c 4).trans (V_main_arg15 m c))),
      ((h c).1 5).trans (((dats 0 c).arrAt_in 5 rfl _).trans ((hA c 5).trans (V_main_arg16 m c))),
      ((h c).1 6).trans (((dats 0 c).arrAt_in 6 rfl _).trans ((hA c 6).trans (V_main_arg17 m c))),
      ((h c).1 7).trans (((dats 0 c).arrAt_in 7 rfl _).trans ((hA c 7).trans (V_main_arg18 m c)))⟩) h

/-! ## The body's accesses and what it leaves in the results' buffers -/

abbrev rA : Rect S512x4096 := Rect.unit (s := S512x4096) ![0, 0] S512x4096.size inb_S512x4096_S512x4096_0_0
abbrev rZ : Rect S4096x512 := Rect.unit (s := S4096x512) ![0, 0] S4096x512.size inb_S4096x512_S4096x512_0_0
abbrev rW : Rect S512x512 := Rect.unit (s := S512x512) ![0, 0] S512x512.size inb_S512x512_S512x512_0_0
abbrev rB : Rect S512x128 := Rect.unit (s := S512x128) ![0, 0] S512x128.size inb_S512x128_S512x128_0_0

/-- The new hidden state's block: the one store into window 8's buffer, over the eight input blocks
    (adjacency rows, features, weights, cell state, biases i, f, g, o). -/
def out0_8 (x0 : Vec F S512x4096 .f32) (x1 : Vec F S4096x512 .f32) (x2 : Vec F S512x512 .f32) (x3 x4 x5 x6 x7 : Vec F S512x128 .f32) : Vec F S512x128 .f32 :=
  View.canon [⟨rB, k0_pay3 (View.ld x0 rA) (View.ld x1 rZ) (View.ld x2 rW) (View.ld x4 rB) (View.ld x5 rB) (View.ld x7 rB) (View.ld x6 rB) (View.ld x3 rB)⟩]

/-- The new cell state's block: the one store into window 9's buffer. -/
def out0_9 (x0 : Vec F S512x4096 .f32) (x1 : Vec F S4096x512 .f32) (x2 : Vec F S512x512 .f32) (x3 x4 x5 x6 : Vec F S512x128 .f32) : Vec F S512x128 .f32 :=
  View.canon [⟨rB, k0_pay2 (View.ld x0 rA) (View.ld x1 rZ) (View.ld x2 rW) (View.ld x4 rB) (View.ld x5 rB) (View.ld x6 rB) (View.ld x3 rB)⟩]

/-- One store through the whole-block rectangle covers the block. -/
theorem coverB (p0 : Vec F S512x128 .f32) (y : S512x128.Idx) :
    ∃ pc ∈ ([⟨rB, p0⟩] : List (View.Piece (Elt F) S512x128 .f32)), y ∈ pc.1.set :=
  View.cover_of_tiled [⟨rB, p0⟩] S512x128.size (by rfl) y

/-! ## The body's triple -/

set_option maxHeartbeats 4000000 in
/-- The body on whole staging buffers, the inputs' at contents `x0 … x7` and the results' at anything, returns with the
    inputs' as they were and the results' at `out0_8`, `out0_9` of the inputs'. -/
theorem sound_kernel (c : Dev nD) (E : Set ℕ) (i : grid0.Coords)
    (arg1 : Memref sig .tc .vmem S512x4096 .f32) (harg1 : arg1.IsWhole) (arg2 : Memref sig .tc .vmem S4096x512 .f32) (harg2 : arg2.IsWhole)
    (arg3 : Memref sig .tc .vmem S512x512 .f32) (harg3 : arg3.IsWhole) (arg4 : Memref sig .tc .vmem S512x128 .f32) (harg4 : arg4.IsWhole)
    (arg5 : Memref sig .tc .vmem S512x128 .f32) (harg5 : arg5.IsWhole) (arg6 : Memref sig .tc .vmem S512x128 .f32) (harg6 : arg6.IsWhole)
    (arg7 : Memref sig .tc .vmem S512x128 .f32) (harg7 : arg7.IsWhole) (arg8 : Memref sig .tc .vmem S512x128 .f32) (harg8 : arg8.IsWhole)
    (arg9 : Memref sig .tc .vmem S512x128 .f32) (harg9 : arg9.IsWhole) (arg10 : Memref sig .tc .vmem S512x128 .f32) (harg10 : arg10.IsWhole)
    (x0 : Vec F S512x4096 .f32) (x1 : Vec F S4096x512 .f32) (x2 : Vec F S512x512 .f32) (x3 x4 x5 x6 x7 : Vec F S512x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out0_8 x0 x1 x2 x3 x4 x5 x6 x7)
            ∗ owns (c : Thread nD τ) arg10 fullShare (out0_9 x0 x1 x2 x3 x4 x5 x6)) -∗ K ⟨⟩))
      ⊢ wp frame (wpE (defs₀ (F := F)) Variants.none c none) E (cc0__cell_kernel i arg1 harg1 arg2 harg2 arg3 harg3 arg4 harg4 arg5 harg5 arg6 harg6 arg7 harg7 arg8 harg8 arg9 harg9 arg10 harg10) K := by
  simp only [cc0__cell_kernel_eq_skeleton]; unfold cc0__cell_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverB _)
  iexists _; isplitr
  swap; · iexact H9
  ipureintro
  exact View.read_writes_eq_canon _ _ _ (coverB _)

/-! ## The pipeline's proof data -/

/-- After the body at point `t` each input's buffer holds its block and each result's buffer the stored block of the
    input blocks; the invariant is the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
    | ⟨9, _⟩ => out0_9 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before_in0 m (dats m 0 c) (A_eq m c 0) (after0_0 m c) t d
theorem before0_1 (c : Dev nD) (t : Fin cfg0.N) (d) : (dats m 0 c).before 1 t d = iblk m c 1 t :=
  before_in1 m (dats m 0 c) (A_eq m c 1) (after0_1 m c) t d
theorem before0_2 (c : Dev nD) (t : Fin cfg0.N) (d) : (dats m 0 c).before 2 t d = iblk m c 2 t :=
  before_in2 m (dats m 0 c) (A_eq m c 2) (after0_2 m c) t d
theorem before0_3 (c : Dev nD) (t : Fin cfg0.N) (d) : (dats m 0 c).before 3 t d = iblk m c 3 t :=
  before_in3 m (dats m 0 c) (A_eq m c 3) (after0_3 m c) t d
theorem before0_4 (c : Dev nD) (t : Fin cfg0.N) (d) : (dats m 0 c).before 4 t d = iblk m c 4 t :=
  before_in4 m (dats m 0 c) (A_eq m c 4) (after0_4 m c) t d
theorem before0_5 (c : Dev nD) (t : Fin cfg0.N) (d) : (dats m 0 c).before 5 t d = iblk m c 5 t :=
  before_in5 m (dats m 0 c) (A_eq m c 5) (after0_5 m c) t d
theorem before0_6 (c : Dev nD) (t : Fin cfg0.N) (d) : (dats m 0 c).before 6 t d = iblk m c 6 t :=
  before_in6 m (dats m 0 c) (A_eq m c 6) (after0_6 m c) t d
theorem before0_7 (c : Dev nD) (t : Fin cfg0.N) (d) : (dats m 0 c).before 7 t d = iblk m c 7 t :=
  before_in7 m (dats m 0 c) (A_eq m c 7) (after0_7 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, faulting nowhere, with every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Frame

end
-- ==== Proof.LibNary3.lean ====
/-
  A host operation over a literal family of THREE operand references (a three-way `stablehlo.concatenate`, printed
  `nary ![a, b, c] y f`), generic in the signature and the values; the file imports only the library.

  The library's general statement leaves the result as `f (fun k => F ↑(![a, b, c] k))`: under the binder the reference
  `![a, b, c] k` is no literal, so no result lemma rewrites the operands' own contents further. `nary3_result` states the
  same result with each operand's contents at its own reference, `Fin.cons (F ↑a) (Fin.cons (F ↑b) (Fin.cons (F ↑c) _))`,
  and `after_results3` is the library's operation-by-operation rewriting loop with that statement put before the general
  one: what a buffer holds after a line of host operations that contains such joins comes out as a closed term of the
  launch contents.
-/
import Idealize.ShloMosaic.Lib.StableHlo.Run

noncomputable section

namespace Cert.LibNary3

open Idealize.ShloMosaic Idealize.ShloMosaic.StableHlo

variable {τ : Topo} {sig : RefSig} {Val : EltTy → Type} {x a b y : Ref sig .tc}

/-- The result of a three-operand operation at its own result buffer, each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.LibNary3

/-- The library's `after_results` with the three-operand statement tried before the general one. -/
macro "after_results3" : tactic =>
  `(tactic| (simp only [Idealize.ShloMosaic.StableHlo.after_cons, Idealize.ShloMosaic.StableHlo.after_nil]
             repeat (first
               | rw [Idealize.ShloMosaic.StableHlo.nullary_result] | rw [Idealize.ShloMosaic.StableHlo.unary_result]
               | rw [Idealize.ShloMosaic.StableHlo.binary_result] | rw [Idealize.ShloMosaic.StableHlo.ternary_result]
               | rw [Idealize.ShloMosaic.StableHlo.quaternary_result] | rw [Idealize.ShloMosaic.StableHlo.reshape_result]
               | rw [Cert.LibNary3.nary3_result] | rw [Idealize.ShloMosaic.StableHlo.nary_result]
               | (rw [Idealize.ShloMosaic.StableHlo.nullary_result_ne]; rotate_left; decide)
               | (rw [Idealize.ShloMosaic.StableHlo.unary_result_ne]; rotate_left; decide)
               | (rw [Idealize.ShloMosaic.StableHlo.binary_result_ne]; rotate_left; decide)
               | (rw [Idealize.ShloMosaic.StableHlo.ternary_result_ne]; rotate_left; decide)
               | (rw [Idealize.ShloMosaic.StableHlo.quaternary_result_ne]; rotate_left; decide)
               | (rw [Idealize.ShloMosaic.StableHlo.reshape_result_ne]; rotate_left; decide)
               | (rw [Idealize.ShloMosaic.StableHlo.nary_result_ne]; rotate_left; decide))))

end
-- ==== Proof.LibJoinRead.lean ====
/-
  Joins of matrices read at coordinates, generic in the extents and in the element type; imports only the library.

  * `lanes3_apply`: [a,b0] ++ [a,b1] ++ [a,b2] along the lanes, at (p, q): the piece whose lane span holds q, at the
    lane counted from the piece's first.
  * `lanes4_apply`: four [a,b] matrices along the lanes, at (p, q): piece q / b … spelt by comparisons with b, 2b, 3b.
  * `rows3_apply`: [a0,b] ++ [a1,b] ++ [a2,b] along the rows, at (p, q): the piece whose row span holds p.
  Each is the library's reading of a concatenation inside one piece, at the piece the comparison selects.
-/
import Idealize.ShloMosaic.Lib.Pipeline.Value
import Idealize.ShloMosaic.Lib.ValueIdx

noncomputable section

namespace Cert.LibJoinRead

open Idealize.ShloMosaic Idealize.ShloMosaic.ValueIdx

variable {α : Type}

theorem lanes3_apply {a b0 b1 b2 n : Nat} (x0 : (⟨2, ![a, b0]⟩ : Shape).Idx → α) (x1 : (⟨2, ![a, b1]⟩ : Shape).Idx → α)
    (x2 : (⟨2, ![a, b2]⟩ : Shape).Idx → α)
    (hc : Shape.Concatenates [(⟨2, ![a, b0]⟩ : Shape), ⟨2, ![a, b1]⟩, ⟨2, ![a, b2]⟩] ⟨2, ![a, n]⟩ 1) (hn : n = b0 + b1 + b2)
    (p : Fin a) (q : Fin n) :
    concatenate (⟨2, ![a, n]⟩ : Shape) (1 : Fin 2) [⟨⟨2, ![a, b0]⟩, x0⟩, ⟨⟨2, ![a, b1]⟩, x1⟩, ⟨⟨2, ![a, b2]⟩, x2⟩] hc (ix2 p q)
      = if h0 : q.val < b0 then x0 (ix2 p ⟨q.val, h0⟩)
        else if h1 : q.val < b0 + b1 then x1 (ix2 p ⟨q.val - b0, by omega⟩)
        else x2 (ix2 p ⟨q.val - (b0 + b1), by have := q.isLt; omega⟩) := by
  split_ifs with h0 h1
  · exact concatenate_apply_piece (t := (⟨2, ![a, n]⟩ : Shape)) (1 : Fin 2) [⟨⟨2, ![a, b0]⟩, x0⟩, ⟨⟨2, ![a, b1]⟩, x1⟩, ⟨⟨2, ![a, b2]⟩, x2⟩] hc (ix2 p q) 0 (by show (0 : Nat) < 3; omega) _ x0 rfl rfl 0 rfl (ix2 p ⟨q.val, h0⟩)
      (fun b hb => by match b with | ⟨0, _⟩ => rfl | ⟨1, _⟩ => exact absurd rfl hb) (Nat.zero_add _)
  · exact concatenate_apply_piece (t := (⟨2, ![a, n]⟩ : Shape)) (1 : Fin 2) [⟨⟨2, ![a, b0]⟩, x0⟩, ⟨⟨2, ![a, b1]⟩, x1⟩, ⟨⟨2, ![a, b2]⟩, x2⟩] hc (ix2 p q) 1 (by show (1 : Nat) < 3; omega) _ x1 rfl rfl b0 (by simp) (ix2 p ⟨q.val - b0, by omega⟩)
      (fun b hb => by match b with | ⟨0, _⟩ => rfl | ⟨1, _⟩ => exact absurd rfl hb) (by show b0 + (q.val - b0) = q.val; omega)
  · exact concatenate_apply_piece (t := (⟨2, ![a, n]⟩ : Shape)) (1 : Fin 2) [⟨⟨2, ![a, b0]⟩, x0⟩, ⟨⟨2, ![a, b1]⟩, x1⟩, ⟨⟨2, ![a, b2]⟩, x2⟩] hc (ix2 p q) 2 (by show (2 : Nat) < 3; omega) _ x2 rfl rfl (b0 + b1) (by simp) (ix2 p ⟨q.val - (b0 + b1), by have := q.isLt; omega⟩)
      (fun b hb => by match b with | ⟨0, _⟩ => rfl | ⟨1, _⟩ => exact absurd rfl hb) (by show b0 + b1 + (q.val - (b0 + b1)) = q.val; omega)

theorem lanes4_apply {a b n : Nat} (x0 x1 x2 x3 : (⟨2, ![a, b]⟩ : Shape).Idx → α)
    (hc : Shape.Concatenates [(⟨2, ![a, b]⟩ : Shape), ⟨2, ![a, b]⟩, ⟨2, ![a, b]⟩, ⟨2, ![a, b]⟩] ⟨2, ![a, n]⟩ 1) (hn : n = b + b + b + b)
    (p : Fin a) (q : Fin n) :
    concatenate (⟨2, ![a, n]⟩ : Shape) (1 : Fin 2) [⟨⟨2, ![a, b]⟩, x0⟩, ⟨⟨2, ![a, b]⟩, x1⟩, ⟨⟨2, ![a, b]⟩, x2⟩, ⟨⟨2, ![a, b]⟩, x3⟩] hc (ix2 p q)
      = if h0 : q.val < b then x0 (ix2 p ⟨q.val, h0⟩)
        else if h1 : q.val < b + b then x1 (ix2 p ⟨q.val - b, by omega⟩)
        else if h2 : q.val < b + b + b then x2 (ix2 p ⟨q.val - (b + b), by omega⟩)
        else x3 (ix2 p ⟨q.val - (b + b + b), by have := q.isLt; omega⟩) := by
  split_ifs with h0 h1 h2
  · exact concatenate_apply_piece (t := (⟨2, ![a, n]⟩ : Shape)) (1 : Fin 2) [⟨⟨2, ![a, b]⟩, x0⟩, ⟨⟨2, ![a, b]⟩, x1⟩, ⟨⟨2, ![a, b]⟩, x2⟩, ⟨⟨2, ![a, b]⟩, x3⟩] hc (ix2 p q) 0 (by show (0 : Nat) < 4; omega) _ x0 rfl rfl 0 rfl (ix2 p ⟨q.val, h0⟩)
      (fun b' hb => by match b' with | ⟨0, _⟩ => rfl | ⟨1, _⟩ => exact absurd rfl hb) (Nat.zero_add _)
  · exact concatenate_apply_piece (t := (⟨2, ![a, n]⟩ : Shape)) (1 : Fin 2) [⟨⟨2, ![a, b]⟩, x0⟩, ⟨⟨2, ![a, b]⟩, x1⟩, ⟨⟨2, ![a, b]⟩, x2⟩, ⟨⟨2, ![a, b]⟩, x3⟩] hc (ix2 p q) 1 (by show (1 : Nat) < 4; omega) _ x1 rfl rfl b (by simp) (ix2 p ⟨q.val - b, by omega⟩)
      (fun b' hb => by match b' with | ⟨0, _⟩ => rfl | ⟨1, _⟩ => exact absurd rfl hb) (by show b + (q.val - b) = q.val; omega)
  · exact concatenate_apply_piece (t := (⟨2, ![a, n]⟩ : Shape)) (1 : Fin 2) [⟨⟨2, ![a, b]⟩, x0⟩, ⟨⟨2, ![a, b]⟩, x1⟩, ⟨⟨2, ![a, b]⟩, x2⟩, ⟨⟨2, ![a, b]⟩, x3⟩] hc (ix2 p q) 2 (by show (2 : Nat) < 4; omega) _ x2 rfl rfl (b + b) (by simp) (ix2 p ⟨q.val - (b + b), by omega⟩)
      (fun b' hb => by match b' with | ⟨0, _⟩ => rfl | ⟨1, _⟩ => exact absurd rfl hb) (by show b + b + (q.val - (b + b)) = q.val; omega)
  · exact concatenate_apply_piece (t := (⟨2, ![a, n]⟩ : Shape)) (1 : Fin 2) [⟨⟨2, ![a, b]⟩, x0⟩, ⟨⟨2, ![a, b]⟩, x1⟩, ⟨⟨2, ![a, b]⟩, x2⟩, ⟨⟨2, ![a, b]⟩, x3⟩] hc (ix2 p q) 3 (by show (3 : Nat) < 4; omega) _ x3 rfl rfl (b + b + b) (by simp [Nat.add_assoc]) (ix2 p ⟨q.val - (b + b + b), by have := q.isLt; omega⟩)
      (fun b' hb => by match b' with | ⟨0, _⟩ => rfl | ⟨1, _⟩ => exact absurd rfl hb) (by show b + b + b + (q.val - (b + b + b)) = q.val; omega)

theorem rows3_apply {a0 a1 a2 n b : Nat} (x0 : (⟨2, ![a0, b]⟩ : Shape).Idx → α) (x1 : (⟨2, ![a1, b]⟩ : Shape).Idx → α)
    (x2 : (⟨2, ![a2, b]⟩ : Shape).Idx → α)
    (hc : Shape.Concatenates [(⟨2, ![a0, b]⟩ : Shape), ⟨2, ![a1, b]⟩, ⟨2, ![a2, b]⟩] ⟨2, ![n, b]⟩ 0) (hn : n = a0 + a1 + a2)
    (p : Fin n) (q : Fin b) :
    concatenate (⟨2, ![n, b]⟩ : Shape) (0 : Fin 2) [⟨⟨2, ![a0, b]⟩, x0⟩, ⟨⟨2, ![a1, b]⟩, x1⟩, ⟨⟨2, ![a2, b]⟩, x2⟩] hc (ix2 p q)
      = if h0 : p.val < a0 then x0 (ix2 ⟨p.val, h0⟩ q)
        else if h1 : p.val < a0 + a1 then x1 (ix2 ⟨p.val - a0, by omega⟩ q)
        else x2 (ix2 ⟨p.val - (a0 + a1), by have := p.isLt; omega⟩ q) := by
  split_ifs with h0 h1
  · exact concatenate_apply_piece (t := (⟨2, ![n, b]⟩ : Shape)) (0 : Fin 2) [⟨⟨2, ![a0, b]⟩, x0⟩, ⟨⟨2, ![a1, b]⟩, x1⟩, ⟨⟨2, ![a2, b]⟩, x2⟩] hc (ix2 p q) 0 (by show (0 : Nat) < 3; omega) _ x0 rfl rfl 0 rfl (ix2 ⟨p.val, h0⟩ q)
      (fun b' hb => by match b' with | ⟨0, _⟩ => exact absurd rfl hb | ⟨1, _⟩ => rfl) (Nat.zero_add _)
  · exact concatenate_apply_piece (t := (⟨2, ![n, b]⟩ : Shape)) (0 : Fin 2) [⟨⟨2, ![a0, b]⟩, x0⟩, ⟨⟨2, ![a1, b]⟩, x1⟩, ⟨⟨2, ![a2, b]⟩, x2⟩] hc (ix2 p q) 1 (by show (1 : Nat) < 3; omega) _ x1 rfl rfl a0 (by simp) (ix2 ⟨p.val - a0, by omega⟩ q)
      (fun b' hb => by match b' with | ⟨0, _⟩ => exact absurd rfl hb | ⟨1, _⟩ => rfl) (by show a0 + (p.val - a0) = p.val; omega)
  · exact concatenate_apply_piece (t := (⟨2, ![n, b]⟩ : Shape)) (0 : Fin 2) [⟨⟨2, ![a0, b]⟩, x0⟩, ⟨⟨2, ![a1, b]⟩, x1⟩, ⟨⟨2, ![a2, b]⟩, x2⟩] hc (ix2 p q) 2 (by show (2 : Nat) < 3; omega) _ x2 rfl rfl (a0 + a1) (by simp) (ix2 ⟨p.val - (a0 + a1), by have := p.isLt; omega⟩ q)
      (fun b' hb => by match b' with | ⟨0, _⟩ => exact absurd rfl hb | ⟨1, _⟩ => rfl) (by show a0 + a1 + (p.val - (a0 + a1)) = p.val; omega)

end Cert.LibJoinRead

end
-- ==== Proof.Spec.lean ====
/-
  The specification of the graph-convolution LSTM cell, on extended reals, in two arrangements.

  A cell over N = 4096 nodes, F = 256 input features and H = 128 hidden units. One graph convolution of a feature
  matrix Z with weights W is A · (Z · W) for the dense adjacency matrix A. Each gate's pre-activation is a sum of
  graph convolutions of the inputs X, the hidden state h and (except for the candidate gate) the cell state c, plus a
  bias; then
      i, f, o = σ(pre_i), σ(pre_f), σ(pre_o)      g = tanh (tanh pre_g)
      c' = σ(f · c + i · g)                        h' = tanh c' · o .

  * the REFERENCE arrangement sums the graph convolutions one by one, each as A · (Z · W);
  * the JOINED arrangement multiplies A once by the features joined along the lanes, [X | h | c] (4096 × 512), and the
    product once by the 512 × 512 matrix of all weights (block rows for X, h, c; block columns for the gates in the
    order i, f, o, g; the block "c to g" zero), and reads gate G's pre-activation in columns 128·G … 128·G + 127.

  The two agree when every entry is a real number (the regrouping distributes products over sums, which the extended
  reals do not allow at the infinities): `Algebra.lean`.
-/
import Idealize.ShloMosaic.PureOps.Ideal
import Idealize.ShloMosaic.Lib.ValueIdx

noncomputable section

namespace Cert.Spec

open Idealize.ShloMosaic Idealize.ShloMosaic.ValueIdx

/-- An a × b matrix of extended reals, indexed as the programs index a rank-2 array. -/
abbrev Mat (a b : Nat) : Type := (⟨2, ![a, b]⟩ : Shape).Idx → EReal

/-- The nineteen argument arrays, in the order of the programs' signatures. -/
structure Args where
  X : Mat 4096 256
  A : Mat 4096 4096
  h : Mat 4096 128
  c : Mat 4096 128
  Wui : Mat 256 128
  Wwi : Mat 128 128
  Wvi : Mat 128 128
  Wuf : Mat 256 128
  Wwf : Mat 128 128
  Wvf : Mat 128 128
  Wug : Mat 256 128
  Wwg : Mat 128 128
  Wuo : Mat 256 128
  Wwo : Mat 128 128
  Wvo : Mat 128 128
  bi : Mat 4096 128
  bf : Mat 4096 128
  bg : Mat 4096 128
  bo : Mat 4096 128

/-- Every entry of a matrix is a real number. -/
def Mat.Real {a b : Nat} (M : Mat a b) : Prop := ∀ i, ∃ r : ℝ, M i = (r : EReal)

/-- Every entry of every argument array is a real number. -/
structure Args.Real (a : Args) : Prop where
  X : a.X.Real
  A : a.A.Real
  h : a.h.Real
  c : a.c.Real
  Wui : a.Wui.Real
  Wwi : a.Wwi.Real
  Wvi : a.Wvi.Real
  Wuf : a.Wuf.Real
  Wwf : a.Wwf.Real
  Wvf : a.Wvf.Real
  Wug : a.Wug.Real
  Wwg : a.Wwg.Real
  Wuo : a.Wuo.Real
  Wwo : a.Wwo.Real
  Wvo : a.Wvo.Real
  bi : a.bi.Real
  bf : a.bf.Real
  bg : a.bg.Real
  bo : a.bo.Real

/-! ## The gates' tail -/

/-- The new cell state from the pre-activations of the input, forget and candidate gates and the old cell state. -/
def cellNew (pi pf pg c : EReal) : EReal :=
  Ideal.logistic (Ideal.logistic pf * c + Ideal.logistic pi * Ideal.tanh (Ideal.tanh pg))

/-- The new hidden state: the output gate applied to the squashed new cell state. -/
def hidNew (pi pf po pg c : EReal) : EReal :=
  Ideal.tanh (cellNew pi pf pg c) * Ideal.logistic po

/-! ## The reference arrangement -/

/-- One graph convolution A · (Z · W) at row r, column n. -/
def gc {K : Nat} (A : Mat 4096 4096) (Z : Mat 4096 K) (W : Mat K 128) (r : Fin 4096) (n : Fin 128) : EReal :=
  ∑ j : Fin 4096, A (ix2 r j) * ∑ k : Fin K, Z (ix2 j k) * W (ix2 k n)

/-- A gate fed by X, h and c. -/
def pre3 (a : Args) (Wu : Mat 256 128) (Ww Wv : Mat 128 128) (b : Mat 4096 128) (i : (⟨2, ![4096, 128]⟩ : Shape).Idx) : EReal :=
  gc a.A a.X Wu (i 0) (i 1) + gc a.A a.h Ww (i 0) (i 1) + gc a.A a.c Wv (i 0) (i 1) + b i

/-- The candidate gate, fed by X and h only. -/
def pre2 (a : Args) (Wu : Mat 256 128) (Ww : Mat 128 128) (b : Mat 4096 128) (i : (⟨2, ![4096, 128]⟩ : Shape).Idx) : EReal :=
  gc a.A a.X Wu (i 0) (i 1) + gc a.A a.h Ww (i 0) (i 1) + b i

def refC (a : Args) : Mat 4096 128 := fun i =>
  cellNew (pre3 a a.Wui a.Wwi a.Wvi a.bi i) (pre3 a a.Wuf a.Wwf a.Wvf a.bf i) (pre2 a a.Wug a.Wwg a.bg i) (a.c i)

def refH (a : Args) : Mat 4096 128 := fun i =>
  hidNew (pre3 a a.Wui a.Wwi a.Wvi a.bi i) (pre3 a a.Wuf a.Wwf a.Wvf a.bf i) (pre3 a a.Wuo a.Wwo a.Wvo a.bo i)
    (pre2 a a.Wug a.Wwg a.bg i) (a.c i)

/-! ## The joined arrangement -/

/-- [X | h | c] at row j, lane k. -/
def Zcat (a : Args) (j : Fin 4096) (k : Fin 512) : EReal :=
  if h1 : k.val < 256 then a.X (ix2 j ⟨k.val, h1⟩)
  else if h2 : k.val < 384 then a.h (ix2 j ⟨k.val - 256, by omega⟩)
  else a.c (ix2 j ⟨k.val - 384, by omega⟩)

/-- Four K × 128 matrices side by side, at row k, lane q. -/
def join4 {K : Nat} (W0 W1 W2 W3 : Mat K 128) (k : Fin K) (q : Fin 512) : EReal :=
  if h1 : q.val < 128 then W0 (ix2 k ⟨q.val, h1⟩)
  else if h2 : q.val < 256 then W1 (ix2 k ⟨q.val - 128, by omega⟩)
  else if h3 : q.val < 384 then W2 (ix2 k ⟨q.val - 256, by omega⟩)
  else W3 (ix2 k ⟨q.val - 384, by omega⟩)

/-- All weights: block rows X (256), h (128), c (128); block columns i, f, o, g; the block "c to g" zero. -/
def Wall (a : Args) (k : Fin 512) (q : Fin 512) : EReal :=
  if h1 : k.val < 256 then join4 a.Wui a.Wuf a.Wuo a.Wug ⟨k.val, h1⟩ q
  else if h2 : k.val < 384 then join4 a.Wwi a.Wwf a.Wwo a.Wwg ⟨k.val - 256, by omega⟩ q
  else join4 a.Wvi a.Wvf a.Wvo (fun _ => 0) ⟨k.val - 384, by omega⟩ q

/-- (A · [X | h | c]) · W_all at row r, lane q. -/
def joined (a : Args) (r : Fin 4096) (q : Fin 512) : EReal :=
  ∑ k : Fin 512, (∑ j : Fin 4096, a.A (ix2 r j) * Zcat a j k) * Wall a k q

/-- Gate G's pre-activation: lane 128·G + n of the joined product, plus the bias. -/
def preJ (a : Args) (G : Fin 4) (b : Mat 4096 128) (i : (⟨2, ![4096, 128]⟩ : Shape).Idx) : EReal :=
  joined a (i 0) ⟨128 * G.val + (i 1).val, by have := (i 1).isLt; have := G.isLt; simp only [Matrix.cons_val_one, Matrix.cons_val_zero] at *; omega⟩ + b i

def kerC (a : Args) : Mat 4096 128 := fun i =>
  cellNew (preJ a 0 a.bi i) (preJ a 1 a.bf i) (preJ a 3 a.bg i) (a.c i)

def kerH (a : Args) : Mat 4096 128 := fun i =>
  hidNew (preJ a 0 a.bi i) (preJ a 1 a.bf i) (preJ a 2 a.bo i) (preJ a 3 a.bg i) (a.c i)

end Cert.Spec

end
-- ==== Proof.KerHost.lean ====
/-
  What the region finds in the two arrays the host operations build, at the ideal instance.

  The seven host operations join the feature matrices X, h, c along the lanes into one 4096 × 512 matrix, and the
  eleven weight matrices and one zero block into one 512 × 512 matrix: three block rows (the weights applied to X, to
  h and to c), each four blocks wide in the gate order i, f, o, g, the block "c to g" a broadcast zero. Read at
  coordinates these are the specification's `Zcat` and `Wall` of the argument arrays.
-/
import proofs.«122012_g21629455302669_cont_8to1_1577_3_alg».proof.Proof.FrameKI
import proofs.«122012_g21629455302669_cont_8to1_1577_3_alg».proof.Proof.LibNary3
import proofs.«122012_g21629455302669_cont_8to1_1577_3_alg».proof.Proof.LibJoinRead
import proofs.«122012_g21629455302669_cont_8to1_1577_3_alg».proof.Proof.Spec
import Idealize.ShloMosaic.Lib.StableHlo.Run
import Idealize.ShloMosaic.PureOps.Ideal.Laws

noncomputable section

/-- The operation-by-operation rewriting of a buffer's contents after a list of host operations, with the statements
    for joins of three and of four literal operands tried before the general one. -/
macro "after_results34" : tactic =>
  `(tactic| (simp only [Idealize.ShloMosaic.StableHlo.after_cons, Idealize.ShloMosaic.StableHlo.after_nil]
             repeat (first
               | rw [Idealize.ShloMosaic.StableHlo.nullary_result] | rw [Idealize.ShloMosaic.StableHlo.unary_result]
               | rw [Cert.LibNary3.nary3_result] | rw [Idealize.ShloMosaic.StableHlo.nary4_result]
               | rw [Idealize.ShloMosaic.StableHlo.nary_result]
               | (rw [Idealize.ShloMosaic.StableHlo.nullary_result_ne]; rotate_left; decide)
               | (rw [Idealize.ShloMosaic.StableHlo.unary_result_ne]; rotate_left; decide)
               | (rw [Idealize.ShloMosaic.StableHlo.nary_result_ne]; rotate_left; decide))))

namespace Cert.KernelIdeal.KerHost

open Cert.KernelIdeal Cert.KernelIdeal.Gen Cert.KernelIdeal.Frame
open Idealize.ShloMosaic Idealize.ShloMosaic.TcCoe Idealize.SL.Sem Idealize.ShloMosaic.ValueIdx

variable (m : (ℓ : Loc nD τ sig) → Buf (Elt Ideal) ℓ)

/-- The nineteen argument arrays on core `c`, as launched. -/
def args (c : Dev nD) : Cert.Spec.Args :=
  ⟨(m ((c : Thread nD τ).loc main_arg0)),
   (m ((c : Thread nD τ).loc main_arg1)),
   (m ((c : Thread nD τ).loc main_arg2)),
   (m ((c : Thread nD τ).loc main_arg3)),
   (m ((c : Thread nD τ).loc main_arg4)),
   (m ((c : Thread nD τ).loc main_arg5)),
   (m ((c : Thread nD τ).loc main_arg6)),
   (m ((c : Thread nD τ).loc main_arg7)),
   (m ((c : Thread nD τ).loc main_arg8)),
   (m ((c : Thread nD τ).loc main_arg9)),
   (m ((c : Thread nD τ).loc main_arg10)),
   (m ((c : Thread nD τ).loc main_arg11)),
   (m ((c : Thread nD τ).loc main_arg12)),
   (m ((c : Thread nD τ).loc main_arg13)),
   (m ((c : Thread nD τ).loc main_arg14)),
   (m ((c : Thread nD τ).loc main_arg15)),
   (m ((c : Thread nD τ).loc main_arg16)),
   (m ((c : Thread nD τ).loc main_arg17)),
   (m ((c : Thread nD τ).loc main_arg18))⟩

/-- The broadcast zero constant is zero everywhere. -/
theorem zero_block : (broadcastInDim S128x128 ![] bcast_S_S128x128 (constant (F := Ideal) S_ .f32 0x00000000#32) : S128x128.Idx → EReal)
    = fun _ => 0 := funext fun _ => Ideal.ofBits_zero_f32

/-- The joined features: [X | h | c]. -/
theorem V_feat (c : Dev nD) : (V m c main_v0 : S4096x512.Idx → EReal) = fun i => Cert.Spec.Zcat (args m c) (i 0) (i 1) := by
  have e : (V m c main_v0 : S4096x512.Idx → EReal)
      = concatenate S4096x512 1 [⟨S4096x256, (args m c).X⟩, ⟨S4096x128, (args m c).h⟩, ⟨S4096x128, (args m c).c⟩]
          concatenates_S4096x256_S4096x128_S4096x128_S4096x512_d1 := by
    dsimp only [V, hostOps0]; after_results34; rfl
  rw [e]; funext i
  obtain ⟨p, q, rfl⟩ : ∃ (p : Fin 4096) (q : Fin 512), i = ix2 p q := ⟨i 0, i 1, eq_ix2 i⟩
  exact (Cert.LibJoinRead.lanes3_apply (a := 4096) (b0 := 256) (b1 := 128) (b2 := 128) (n := 512) _ _ _ _ rfl p q).trans rfl

set_option maxHeartbeats 4000000 in
/-- The joined weights. -/
theorem V_wall (c : Dev nD) : (V m c main_v5 : S512x512.Idx → EReal) = fun i => Cert.Spec.Wall (args m c) (i 0) (i 1) := by
  have e : (V m c main_v5 : S512x512.Idx → EReal)
      = concatenate S512x512 0
          [⟨S256x512, concatenate S256x512 1 [⟨S256x128, (args m c).Wui⟩, ⟨S256x128, (args m c).Wuf⟩, ⟨S256x128, (args m c).Wuo⟩, ⟨S256x128, (args m c).Wug⟩]
              concatenates_S256x128_S256x128_S256x128_S256x128_S256x512_d1⟩,
           ⟨S128x512, concatenate S128x512 1 [⟨S128x128, (args m c).Wwi⟩, ⟨S128x128, (args m c).Wwf⟩, ⟨S128x128, (args m c).Wwo⟩, ⟨S128x128, (args m c).Wwg⟩]
              concatenates_S128x128_S128x128_S128x128_S128x128_S128x512_d1⟩,
           ⟨S128x512, concatenate S128x512 1 [⟨S128x128, (args m c).Wvi⟩, ⟨S128x128, (args m c).Wvf⟩, ⟨S128x128, (args m c).Wvo⟩,
              ⟨S128x128, broadcastInDim S128x128 ![] bcast_S_S128x128 (constant (F := Ideal) S_ .f32 0x00000000#32)⟩]
              concatenates_S128x128_S128x128_S128x128_S128x128_S128x512_d1⟩]
          concatenates_S256x512_S128x512_S128x512_S512x512_d0 := by
    dsimp only [V, hostOps0]; after_results34; rfl
  rw [e, zero_block]; funext i
  obtain ⟨p, q, rfl⟩ : ∃ (p : Fin 512) (q : Fin 512), i = ix2 p q := ⟨i 0, i 1, eq_ix2 i⟩
  rw [Cert.LibJoinRead.rows3_apply (a0 := 256) (a1 := 128) (a2 := 128) (n := 512) (b := 512) _ _ _ _ rfl p q]
  show _ = Cert.Spec.Wall (args m c) p q
  unfold Cert.Spec.Wall
  by_cases h0 : p.val < 256
  · rw [dif_pos h0, dif_pos h0]
    exact (Cert.LibJoinRead.lanes4_apply (a := 256) (b := 128) (n := 512) _ _ _ _ _ rfl _ q).trans rfl
  · rw [dif_neg h0, dif_neg h0]
    by_cases h1 : p.val < 384
    · rw [dif_pos (show p.val < 256 + 128 from h1), dif_pos h1]
      exact (Cert.LibJoinRead.lanes4_apply (a := 128) (b := 128) (n := 512) _ _ _ _ _ rfl _ q).trans rfl
    · rw [dif_neg (show ¬ p.val < 256 + 128 from h1), dif_neg h1]
      exact (Cert.LibJoinRead.lanes4_apply (a := 128) (b := 128) (n := 512) _ _ _ _ _ rfl _ q).trans rfl

end Cert.KernelIdeal.KerHost

end
-- ==== Proof.LibDense.lean ====
/-
  Dense layers read as functions of rows, at the ideal values.

  A dense layer of an MLP takes an [A, K] matrix of rows, a [K, N] weight matrix and an [N] bias to the [A, N]
  matrix whose entry (r, n) is  sum_k x(r, k) * w(k, n) + b(n).  Entry (r, n) depends on row r of x only, so the
  layer applied to a block of rows is the block of the layer applied to all rows; that is what lets a kernel
  that walks over row blocks be compared with a reference that multiplies whole matrices.

  Two spellings of the layer are read to this one function: the kernel's (the operands narrowed to bf16, which
  changes nothing at the ideal values; a matrix product accumulated into a zero splat; the bias cast to one row
  and broadcast down the rows) and the host's (a dot_general; the bias broadcast to one row, then down the rows).
  Likewise the tanh form of gelu,  x * (1/2 * (1 + tanh (c1 * (x + c0 * x^3)))),  is read pointwise in the
  kernel's spelling (x^3 as x * (x * x), splatted scalars) and the host's (x^3 as (x * x) * x, broadcast
  constants); the two cubes agree because multiplication of extended reals is commutative.  All of it is generic in the extents.
-/
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibDense

open Idealize.ShloMosaic Idealize.ShloMosaic.ValueIdx

/-! ## The contraction of a plain matrix product as a sum over the shared axis -/

/-- For the plain dimension numbers (rows x contraction times contraction x columns) the contraction index is
    its one coordinate, and the operand indices at output (r, n) and contraction k are (r, k) and (k, n). -/
theorem plain_sum (A K N : Nat) (l : (⟨2, ![A, K]⟩ : Shape).Idx → EReal) (r : (⟨2, ![K, N]⟩ : Shape).Idx → EReal)
    (j : (⟨2, ![A, N]⟩ : Shape).Idx) :
    ∑ k : (DotDims.plain A K N).contr.Idx, l ((DotDims.plain A K N).lhsIdx j k) * r ((DotDims.plain A K N).rhsIdx j k)
      = ∑ k : Fin K, l (ix2 (j 0 : Fin A) k) * r (ix2 k (j 1 : Fin N)) := by
  rw [← Equiv.sum_comp (contrEquiv1 (DotDims.plain A K N) K rfl rfl).symm]
  refine Finset.sum_congr rfl fun k _ => ?_
  have hk := contrEquiv1_symm_val (DotDims.plain A K N) K rfl rfl k
  have el : (DotDims.plain A K N).lhsIdx j ((contrEquiv1 (DotDims.plain A K N) K rfl rfl).symm k) = ix2 (j 0 : Fin A) k := by
    funext a
    match a with
    | ⟨0, _⟩ => rfl
    | ⟨1, _⟩ => exact Fin.ext hk
  have er : (DotDims.plain A K N).rhsIdx j ((contrEquiv1 (DotDims.plain A K N) K rfl rfl).symm k) = ix2 k (j 1 : Fin N) := by
    funext a
    match a with
    | ⟨0, _⟩ => exact Fin.ext hk
    | ⟨1, _⟩ => rfl
  exact congrArg₂ (· * ·) (congrArg l el) (congrArg r er)

/-! ## The bias laid along every row -/

/-- The kernel's spelling: the bias cast to one row and broadcast down the rows reads the bias at the column. -/
theorem bias_rows_kernel {A N : Nat} {α : Type} (b : (⟨1, ![N]⟩ : Shape).Idx → α)
    (h1 : (⟨1, ![N]⟩ : Shape).ShapeCasts ⟨2, ![1, N]⟩) (hb : (⟨2, ![1, N]⟩ : Shape).Broadcasts ⟨2, ![A, N]⟩)
    (i : (⟨2, ![A, N]⟩ : Shape).Idx) :
    broadcastTo ⟨2, ![A, N]⟩ (shapeCast ⟨2, ![1, N]⟩ b h1) hb i = b (ix1 (i 1 : Fin N)) := by
  have e1 := broadcastTo_apply (shapeCast ⟨2, ![1, N]⟩ b h1) hb i (ix2 (0 : Fin 1) (i 1 : Fin N)) (by
    intro a
    match a with
    | ⟨0, _⟩ => rfl
    | ⟨1, _⟩ =>
      show (i 1).val = if N = 1 then 0 else (i 1).val
      split
      · have := (i 1).isLt; have e : (i 1).val < N := this; omega
      · rfl)
  have e2 := shapeCast_apply b h1 (ix2 (0 : Fin 1) (i 1 : Fin N)) (ix1 (i 1 : Fin N)) (by
    rw [Shape.rowMajor_val_two, Shape.rowMajor_val_one]; show (i 1).val = 0 * N + (i 1).val; omega)
  exact e1.trans e2

/-- The host's spelling: the bias broadcast to one row along axis 1, then down the rows, reads the bias at the column. -/
theorem bias_rows_host_ix {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1]) (p : Fin A) (q : Fin N) :
    broadcastInDim ⟨2, ![A, N]⟩ ![0, 1] hbc (broadcastInDim ⟨2, ![1, N]⟩ ![1] hd b) (ix2 p q) = b (ix1 q) := by
  rw [broadcastInDim_oneRow_apply hbc _ p q]
  refine broadcastInDim_apply ![1] hd b (ix2 (0 : Fin 1) q) (ix1 q) ?_
  intro a
  match a with
  | ⟨0, _⟩ =>
    show q.val = if N = 1 then 0 else q.val
    split
    · have := q.isLt; omega
    · rfl

/-- The same at any index. -/
theorem bias_rows_host {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1])
    (i : (⟨2, ![A, N]⟩ : Shape).Idx) :
    broadcastInDim ⟨2, ![A, N]⟩ ![0, 1] hbc (broadcastInDim ⟨2, ![1, N]⟩ ![1] hd b) i = b (ix1 (i 1 : Fin N)) := by
  obtain ⟨p, q, rfl⟩ : ∃ (p : Fin A) (q : Fin N), i = ix2 p q := ⟨i 0, i 1, eq_ix2 i⟩
  exact bias_rows_host_ix b hd hbc p q

/-! ## The dense layer -/

/-- The dense layer on rows: entry (r, n) is the sum over k of x(r, k) * w(k, n), plus b(n). -/
def dense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal :=
  fun j => (∑ k : Fin K, x (ix2 (j 0 : Fin A) k) * w (ix2 k (j 1 : Fin N))) + b (ix1 (j 1 : Fin N))

/-- The kernel's layer (bf16 operands, zero accumulator, bias cast and broadcast) is the dense layer. -/
theorem dense_kernel {A K N : Nat} (x : FVec Ideal ⟨2, ![A, K]⟩ .f32) (w : FVec Ideal ⟨2, ![K, N]⟩ .f32)
    (b : FVec Ideal ⟨1, ![N]⟩ .f32) (hlt : FTy.bits .bf16 < FTy.bits .f32)
    (h1 : (⟨1, ![N]⟩ : Shape).ShapeCasts ⟨2, ![1, N]⟩) (hb : (⟨2, ![1, N]⟩ : Shape).Broadcasts ⟨2, ![A, N]⟩) :
    addf (matmul (DotDims.plain A K N) none (truncf .bf16 x hlt) (truncf .bf16 w hlt) (constant ⟨2, ![A, N]⟩ .f32 0x00000000#32))
      (broadcastTo ⟨2, ![A, N]⟩ (shapeCast ⟨2, ![1, N]⟩ b h1) hb) = dense A K N x w b := by
  funext j
  rw [addf_apply, bias_rows_kernel b h1 hb j]
  refine congrArg (· + b (ix1 (j 1 : Fin N))) ?_
  refine (Ideal.matmul_constant_zero_apply (DotDims.plain A K N) none (truncf .bf16 x hlt) (truncf .bf16 w hlt) j).trans ?_
  exact plain_sum A K N x w j

/-- The host's layer (dot_general, bias broadcast twice) is the dense layer. -/
theorem dense_host {A K N : Nat} (x : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1]) :
    addf (Host.dotGeneral (DotDims.plain A K N) none x w)
      (broadcastInDim ⟨2, ![A, N]⟩ ![0, 1] hbc (broadcastInDim ⟨2, ![1, N]⟩ ![1] hd b)) = dense A K N x w b := by
  funext j
  rw [addf_apply, bias_rows_host b hd hbc j]
  refine congrArg (· + b (ix1 (j 1 : Fin N))) ?_
  refine (Ideal.dotGeneral_apply (DotDims.plain A K N) none _ x w j).trans ?_
  exact plain_sum A K N x w j

/-- Entry (p, q) of the layer depends on row p only: two matrices that agree on a row give the same entry there. -/
theorem dense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    dense A K N x w b (ix2 p q) = dense A' K N x' w b (ix2 r q) := by
  show (∑ k : Fin K, x (ix2 p k) * w (ix2 k q)) + b (ix1 q) = (∑ k : Fin K, x' (ix2 r k) * w (ix2 k q)) + b (ix1 q)
  rw [Finset.sum_congr rfl fun k _ => by rw [h k]]

/-! ## gelu, tanh form -/

/-- gelu's tanh approximation on one extended real, the four f32 constants at their binary values. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The kernel's spelling, pointwise: splatted scalars, the cube as x * (x * x). -/
theorem gelu_kernel {s : Shape} (v : FVec Ideal s .f32) :
    mulf v (mulf (broadcast s (Scalar.ofBits (F := Ideal) .f32 0x3F000000#32))
      (addf (broadcast s (Scalar.ofBits (F := Ideal) .f32 0x3F800000#32))
        (tanh (mulf (broadcast s (Scalar.ofBits (F := Ideal) .f32 0x3F4C422A#32))
          (addf v (mulf (broadcast s (Scalar.ofBits (F := Ideal) .f32 0x3D372713#32)) (mulf v (mulf v v))))))))
      = fun j => gelu (v j) := rfl

/-- The host's spelling, pointwise: broadcast constants, the cube as (x * x) * x. -/
theorem gelu_host {s : Shape} (v : FVec Ideal s .f32) (hS : (⟨0, ![]⟩ : Shape).BroadcastsInDim s (![] : Fin 0 → Fin s.rank)) :
    mulf v (mulf (broadcastInDim s ![] hS (constant (F := Ideal) ⟨0, ![]⟩ .f32 0x3F000000#32))
      (addf (broadcastInDim s ![] hS (constant (F := Ideal) ⟨0, ![]⟩ .f32 0x3F800000#32))
        (Host.tanh (mulf (broadcastInDim s ![] hS (constant (F := Ideal) ⟨0, ![]⟩ .f32 0x3F4C422A#32))
          (addf v (mulf (broadcastInDim s ![] hS (constant (F := Ideal) ⟨0, ![]⟩ .f32 0x3D372713#32)) (mulf (mulf v v) v)))))))
      = fun j => gelu (v j) := by
  funext j
  show v j * (Ideal.ofBits .f32 0x3F000000#32 * (Ideal.ofBits .f32 0x3F800000#32
    + Ideal.tanh (Ideal.ofBits .f32 0x3F4C422A#32 * (v j + Ideal.ofBits .f32 0x3D372713#32 * ((v j * v j) * v j))))) = gelu (v j)
  rw [mul_comm (v j * v j) (v j)]
  rfl

end Cert.LibDense

end
-- ==== Proof.KerPayload.lean ====
/-
  The two stored blocks of the body at coordinates, at the ideal instance, over arbitrary loaded blocks.

  With a (512 × 4096) the block of adjacency rows, z (4096 × 512) the joined features and w (512 × 512) the joined
  weights, the body forms  P = (a · z) · w  (both products accumulated into zero; the narrowing of a and z to bf16 is
  the identity on extended reals), cuts P into four 128-lane bands — the pre-activations of the gates i, f, o, g before
  their biases — and stores  c' = σ(σ(P_f + b_f) · c + σ(P_i + b_i) · tanh (tanh (P_g + b_g)))  and  h' = tanh c' · σ(P_o + b_o).
-/
import proofs.«122012_g21629455302669_cont_8to1_1577_3_alg».proof.Proof.Gen.KernelIdeal.Skeleton
import proofs.«122012_g21629455302669_cont_8to1_1577_3_alg».proof.Proof.LibDense
import proofs.«122012_g21629455302669_cont_8to1_1577_3_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.KerPayload

open Cert.KernelIdeal Cert.KernelIdeal.Gen Idealize.ShloMosaic Idealize.ShloMosaic.ValueIdx

variable (x0 : Vec Ideal S512x4096 .f32) (x1 : Vec Ideal S4096x512 .f32) (x2 : Vec Ideal S512x512 .f32)

/-- (a · z) · w at row p, lane q. -/
def prod2 (p q : Fin 512) : EReal := ∑ k : Fin 512, (∑ j : Fin 4096, x0 (ix2 p j) * x1 (ix2 j k)) * x2 (ix2 k q)

/-- The body's two matrix products, read at (p, q). -/
theorem pay1_apply (p q : Fin 512) : k0_pay1 (F := Ideal) x0 x1 x2 (ix2 p q) = prod2 x0 x1 x2 p q := by
  unfold k0_pay1 prod2
  refine (Ideal.matmul_constant_zero_apply dot_S512x512_S512x512_S512x512_1_0_0_1_n_n none _ _ (ix2 p q)).trans ?_
  refine (Cert.LibDense.plain_sum 512 512 512 _ _ (ix2 p q)).trans ?_
  refine Finset.sum_congr rfl fun k _ => ?_
  refine congrArg₂ (· * ·) ?_ (congrFun (shapeCast_self x2 _) (ix2 k q))
  refine (Ideal.matmul_constant_zero_apply dot_S512x4096_S4096x512_S512x512_1_0_0_1_n_n none _ _ (ix2 p k)).trans ?_
  refine (Cert.LibDense.plain_sum 512 4096 512 _ _ (ix2 p k)).trans ?_
  refine Finset.sum_congr rfl fun j _ => ?_
  exact congrArg (x0 (ix2 p j) * ·) (congrFun (shapeCast_self x1 _) (ix2 j k))

/-- The 128-lane band of the product starting at lane `off`, read at (p, n), is the product at lane off + n. -/
theorem band_apply (off : Nat) (hoff : off + 128 ≤ 512) (h : S512x512.Slices ![0, off] S512x128) (p : Fin 512) (n : Fin 128) :
    extractStridedSlice S512x128 ![0, off] (k0_pay1 (F := Ideal) x0 x1 x2) h (ix2 p n)
      = prod2 x0 x1 x2 p ⟨off + n.val, by have := n.isLt; omega⟩ := by
  refine (extractStridedSlice_apply ![0, off] _ h (ix2 p n) (ix2 p ⟨off + n.val, by have := n.isLt; omega⟩) fun a => ?_).trans
    (pay1_apply x0 x1 x2 p _)
  match a with
  | ⟨0, _⟩ => exact (Nat.zero_add _).symm
  | ⟨1, _⟩ => rfl

variable (bi bf bo bg cc : Vec Ideal S512x128 .f32)

/-- The stored new cell state at (p, n). -/
theorem pay2_apply (p : Fin 512) (n : Fin 128) :
    k0_pay2 (F := Ideal) x0 x1 x2 bi bf bg cc (ix2 p n)
      = Cert.Spec.cellNew (prod2 x0 x1 x2 p ⟨0 + n.val, by have := n.isLt; omega⟩ + bi (ix2 p n))
          (prod2 x0 x1 x2 p ⟨128 + n.val, by have := n.isLt; omega⟩ + bf (ix2 p n))
          (prod2 x0 x1 x2 p ⟨384 + n.val, by have := n.isLt; omega⟩ + bg (ix2 p n)) (cc (ix2 p n)) := by
  have key : k0_pay2 (F := Ideal) x0 x1 x2 bi bf bg cc (ix2 p n)
      = Cert.Spec.cellNew (extractStridedSlice S512x128 ![0, 0] (k0_pay1 (F := Ideal) x0 x1 x2) slices_S512x512_o0_0_S512x128 (ix2 p n) + bi (ix2 p n))
          (extractStridedSlice S512x128 ![0, 128] (k0_pay1 (F := Ideal) x0 x1 x2) slices_S512x512_o0_128_S512x128 (ix2 p n) + bf (ix2 p n))
          (extractStridedSlice S512x128 ![0, 384] (k0_pay1 (F := Ideal) x0 x1 x2) slices_S512x512_o0_384_S512x128 (ix2 p n) + bg (ix2 p n)) (cc (ix2 p n)) := rfl
  rw [key, band_apply x0 x1 x2 0 (by omega), band_apply x0 x1 x2 128 (by omega), band_apply x0 x1 x2 384 (by omega)]

/-- The stored new hidden state at (p, n). -/
theorem pay3_apply (p : Fin 512) (n : Fin 128) :
    k0_pay3 (F := Ideal) x0 x1 x2 bi bf bo bg cc (ix2 p n)
      = Cert.Spec.hidNew (prod2 x0 x1 x2 p ⟨0 + n.val, by have := n.isLt; omega⟩ + bi (ix2 p n))
          (prod2 x0 x1 x2 p ⟨128 + n.val, by have := n.isLt; omega⟩ + bf (ix2 p n))
          (prod2 x0 x1 x2 p ⟨256 + n.val, by have := n.isLt; omega⟩ + bo (ix2 p n))
          (prod2 x0 x1 x2 p ⟨384 + n.val, by have := n.isLt; omega⟩ + bg (ix2 p n)) (cc (ix2 p n)) := by
  have key : k0_pay3 (F := Ideal) x0 x1 x2 bi bf bo bg cc (ix2 p n)
      = Ideal.tanh (k0_pay2 (F := Ideal) x0 x1 x2 bi bf bg cc (ix2 p n))
          * Ideal.logistic (extractStridedSlice S512x128 ![0, 256] (k0_pay1 (F := Ideal) x0 x1 x2) slices_S512x512_o0_256_S512x128 (ix2 p n) + bo (ix2 p n)) := rfl
  rw [key, pay2_apply, band_apply x0 x1 x2 256 (by omega)]
  rfl

end Cert.KernelIdeal.KerPayload

end
-- ==== Proof.KerValue.lean ====
/-
  From the blocks to the arrays, at the ideal instance.

  Point `t` of the grid holds rows 512·t … 512·t + 511: its blocks of the adjacency matrix, the cell state and the
  biases are those rows of the argument arrays, the joined features and weights are whole at every point, and the
  block it writes back into each result is those rows of the specification's joined arrangement. The eight row blocks
  tile the 4096 rows, so after the run each result array IS the joined arrangement of the argument arrays.
-/
import proofs.«122012_g21629455302669_cont_8to1_1577_3_alg».proof.Proof.FrameKI
import proofs.«122012_g21629455302669_cont_8to1_1577_3_alg».proof.Proof.KerHost
import proofs.«122012_g21629455302669_cont_8to1_1577_3_alg».proof.Proof.KerPayload
import proofs.«122012_g21629455302669_cont_8to1_1577_3_alg».proof.Proof.Spec
import Idealize.ShloMosaic.Lib.Pipeline.Value

set_option maxRecDepth 16384

noncomputable section

open scoped BigOperators

namespace Cert.KernelIdeal.KerValue

open Cert.KernelIdeal Cert.KernelIdeal.Gen Cert.KernelIdeal.Frame Cert.KernelIdeal.KerHost Cert.KernelIdeal.KerPayload
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: a row-blocked window is at block (t, 0), a resident one at (0, 0). -/
theorem idx_facts : ∀ t : Fin cfg0.N,
    win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0
    ∧ win0_5.index t (0 : Fin 2) = t.val
    ∧ win0_5.index t (1 : Fin 2) = 0
    ∧ win0_6.index t (0 : Fin 2) = t.val
    ∧ win0_6.index t (1 : Fin 2) = 0
    ∧ win0_7.index t (0 : Fin 2) = t.val
    ∧ win0_7.index t (1 : Fin 2) = 0
    ∧ win0_8.index t (0 : Fin 2) = t.val
    ∧ win0_8.index t (1 : Fin 2) = 0
    ∧ win0_9.index t (0 : Fin 2) = t.val
    ∧ win0_9.index t (1 : Fin 2) = 0 :=
  (by decide +kernel : ∀ t : Fin grid0.N, _)

theorem t_lt (t : Fin cfg0.N) : t.val < 8 := by
  have h : t.val < grid0.N := t.isLt
  rwa [N_0] at h

/-- Row `p` of row block `t`. -/
def row (t : Fin cfg0.N) (p : Fin 512) : Fin 4096 := ⟨t.val * 512 + p.val, by have := t_lt t; have := p.isLt; omega⟩

/-! ## Where a block's coordinates sit in its array -/

theorem emb0 (t : Fin cfg0.N) (p : Fin 512) (q : Fin 4096) : ((cfg0.win 0).blk t).view.emb (ix2 p q) = ix2 (row t p) q := by
  have e0 := (idx_facts t).1
  have e1 := (idx_facts t).2.1
  funext a; apply Fin.ext
  match a with
  | ⟨0, _⟩ => show win0_0.index t (0 : Fin 2) * 512 + 1 * p.val = t.val * 512 + p.val; rw [e0]; omega
  | ⟨1, _⟩ => show win0_0.index t (1 : Fin 2) * 4096 + 1 * q.val = q.val; rw [e1]; omega
theorem emb1 (t : Fin cfg0.N) (y : S4096x512.Idx) : ((cfg0.win 1).blk t).view.emb y = y := by
  have e0 := (idx_facts t).2.2.1
  have e1 := (idx_facts t).2.2.2.1
  funext a; apply Fin.ext
  match a with
  | ⟨0, _⟩ => show win0_1.index t (0 : Fin 2) * 4096 + 1 * (y 0).val = (y 0).val; rw [e0]; omega
  | ⟨1, _⟩ => show win0_1.index t (1 : Fin 2) * 512 + 1 * (y 1).val = (y 1).val; rw [e1]; omega
theorem emb2 (t : Fin cfg0.N) (y : S512x512.Idx) : ((cfg0.win 2).blk t).view.emb y = y := by
  have e0 := (idx_facts t).2.2.2.2.1
  have e1 := (idx_facts t).2.2.2.2.2.1
  funext a; apply Fin.ext
  match a with
  | ⟨0, _⟩ => show win0_2.index t (0 : Fin 2) * 512 + 1 * (y 0).val = (y 0).val; rw [e0]; omega
  | ⟨1, _⟩ => show win0_2.index t (1 : Fin 2) * 512 + 1 * (y 1).val = (y 1).val; rw [e1]; omega
theorem emb3 (t : Fin cfg0.N) (p : Fin 512) (q : Fin 128) : ((cfg0.win 3).blk t).view.emb (ix2 p q) = ix2 (row t p) q := by
  have e0 := (idx_facts t).2.2.2.2.2.2.1
  have e1 := (idx_facts t).2.2.2.2.2.2.2.1
  funext a; apply Fin.ext
  match a with
  | ⟨0, _⟩ => show win0_3.index t (0 : Fin 2) * 512 + 1 * p.val = t.val * 512 + p.val; rw [e0]; omega
  | ⟨1, _⟩ => show win0_3.index t (1 : Fin 2) * 128 + 1 * q.val = q.val; rw [e1]; omega
theorem emb4 (t : Fin cfg0.N) (p : Fin 512) (q : Fin 128) : ((cfg0.win 4).blk t).view.emb (ix2 p q) = ix2 (row t p) q := by
  have e0 := (idx_facts t).2.2.2.2.2.2.2.2.1
  have e1 := (idx_facts t).2.2.2.2.2.2.2.2.2.1
  funext a; apply Fin.ext
  match a with
  | ⟨0, _⟩ => show win0_4.index t (0 : Fin 2) * 512 + 1 * p.val = t.val * 512 + p.val; rw [e0]; omega
  | ⟨1, _⟩ => show win0_4.index t (1 : Fin 2) * 128 + 1 * q.val = q.val; rw [e1]; omega
theorem emb5 (t : Fin cfg0.N) (p : Fin 512) (q : Fin 128) : ((cfg0.win 5).blk t).view.emb (ix2 p q) = ix2 (row t p) q := by
  have e0 := (idx_facts t).2.2.2.2.2.2.2.2.2.2.1
  have e1 := (idx_facts t).2.2.2.2.2.2.2.2.2.2.2.1
  funext a; apply Fin.ext
  match a with
  | ⟨0, _⟩ => show win0_5.index t (0 : Fin 2) * 512 + 1 * p.val = t.val * 512 + p.val; rw [e0]; omega
  | ⟨1, _⟩ => show win0_5.index t (1 : Fin 2) * 128 + 1 * q.val = q.val; rw [e1]; omega
theorem emb6 (t : Fin cfg0.N) (p : Fin 512) (q : Fin 128) : ((cfg0.win 6).blk t).view.emb (ix2 p q) = ix2 (row t p) q := by
  have e0 := (idx_facts t).2.2.2.2.2.2.2.2.2.2.2.2.1
  have e1 := (idx_facts t).2.2.2.2.2.2.2.2.2.2.2.2.2.1
  funext a; apply Fin.ext
  match a with
  | ⟨0, _⟩ => show win0_6.index t (0 : Fin 2) * 512 + 1 * p.val = t.val * 512 + p.val; rw [e0]; omega
  | ⟨1, _⟩ => show win0_6.index t (1 : Fin 2) * 128 + 1 * q.val = q.val; rw [e1]; omega
theorem emb7 (t : Fin cfg0.N) (p : Fin 512) (q : Fin 128) : ((cfg0.win 7).blk t).view.emb (ix2 p q) = ix2 (row t p) q := by
  have e0 := (idx_facts t).2.2.2.2.2.2.2.2.2.2.2.2.2.2.1
  have e1 := (idx_facts t).2.2.2.2.2.2.2.2.2.2.2.2.2.2.2.1
  funext a; apply Fin.ext
  match a with
  | ⟨0, _⟩ => show win0_7.index t (0 : Fin 2) * 512 + 1 * p.val = t.val * 512 + p.val; rw [e0]; omega
  | ⟨1, _⟩ => show win0_7.index t (1 : Fin 2) * 128 + 1 * q.val = q.val; rw [e1]; omega
theorem emb8 (t : Fin cfg0.N) (p : Fin 512) (q : Fin 128) : ((cfg0.win 8).blk t).view.emb (ix2 p q) = ix2 (row t p) q := by
  have e0 := (idx_facts t).2.2.2.2.2.2.2.2.2.2.2.2.2.2.2.2.1
  have e1 := (idx_facts t).2.2.2.2.2.2.2.2.2.2.2.2.2.2.2.2.2.1
  funext a; apply Fin.ext
  match a with
  | ⟨0, _⟩ => show win0_8.index t (0 : Fin 2) * 512 + 1 * p.val = t.val * 512 + p.val; rw [e0]; omega
  | ⟨1, _⟩ => show win0_8.index t (1 : Fin 2) * 128 + 1 * q.val = q.val; rw [e1]; omega
theorem emb9 (t : Fin cfg0.N) (p : Fin 512) (q : Fin 128) : ((cfg0.win 9).blk t).view.emb (ix2 p q) = ix2 (row t p) q := by
  have e0 := (idx_facts t).2.2.2.2.2.2.2.2.2.2.2.2.2.2.2.2.2.2.1
  have e1 := (idx_facts t).2.2.2.2.2.2.2.2.2.2.2.2.2.2.2.2.2.2.2
  funext a; apply Fin.ext
  match a with
  | ⟨0, _⟩ => show win0_9.index t (0 : Fin 2) * 512 + 1 * p.val = t.val * 512 + p.val; rw [e0]; omega
  | ⟨1, _⟩ => show win0_9.index t (1 : Fin 2) * 128 + 1 * q.val = q.val; rw [e1]; omega

/-! ## The input blocks, read -/

theorem blk0 (c : Dev nD) (t : Fin cfg0.N) (p : Fin 512) (q : Fin 4096) : iblk m c 0 t (ix2 p q) = (args m c).A (ix2 (row t p) q) :=
  (congrArg (V m c main_arg1) (emb0 t p q)).trans (congrFun (V_main_arg1 m c) (ix2 (row t p) q))
theorem blk3 (c : Dev nD) (t : Fin cfg0.N) (p : Fin 512) (q : Fin 128) : iblk m c 3 t (ix2 p q) = (args m c).c (ix2 (row t p) q) :=
  (congrArg (V m c main_arg3) (emb3 t p q)).trans (congrFun (V_main_arg3 m c) (ix2 (row t p) q))
theorem blk4 (c : Dev nD) (t : Fin cfg0.N) (p : Fin 512) (q : Fin 128) : iblk m c 4 t (ix2 p q) = (args m c).bi (ix2 (row t p) q) :=
  (congrArg (V m c main_arg15) (emb4 t p q)).trans (congrFun (V_main_arg15 m c) (ix2 (row t p) q))
theorem blk5 (c : Dev nD) (t : Fin cfg0.N) (p : Fin 512) (q : Fin 128) : iblk m c 5 t (ix2 p q) = (args m c).bf (ix2 (row t p) q) :=
  (congrArg (V m c main_arg16) (emb5 t p q)).trans (congrFun (V_main_arg16 m c) (ix2 (row t p) q))
theorem blk6 (c : Dev nD) (t : Fin cfg0.N) (p : Fin 512) (q : Fin 128) : iblk m c 6 t (ix2 p q) = (args m c).bg (ix2 (row t p) q) :=
  (congrArg (V m c main_arg17) (emb6 t p q)).trans (congrFun (V_main_arg17 m c) (ix2 (row t p) q))
theorem blk7 (c : Dev nD) (t : Fin cfg0.N) (p : Fin 512) (q : Fin 128) : iblk m c 7 t (ix2 p q) = (args m c).bo (ix2 (row t p) q) :=
  (congrArg (V m c main_arg18) (emb7 t p q)).trans (congrFun (V_main_arg18 m c) (ix2 (row t p) q))
theorem blk1 (c : Dev nD) (t : Fin cfg0.N) (j : Fin 4096) (k : Fin 512) : iblk m c 1 t (ix2 j k) = Cert.Spec.Zcat (args m c) j k :=
  (congrArg (V m c main_v0) (emb1 t (ix2 j k))).trans (congrFun (V_feat m c) (ix2 j k))
theorem blk2 (c : Dev nD) (t : Fin cfg0.N) (k q : Fin 512) : iblk m c 2 t (ix2 k q) = Cert.Spec.Wall (args m c) k q :=
  (congrArg (V m c main_v5) (emb2 t (ix2 k q))).trans (congrFun (V_wall m c) (ix2 k q))

/-- The body's product of the blocks at point `t` is the joined product at row 512·t + p. -/
theorem prod_blk (c : Dev nD) (t : Fin cfg0.N) (p q : Fin 512) :
    prod2 (iblk m c 0 t) (iblk m c 1 t) (iblk m c 2 t) p q = Cert.Spec.joined (args m c) (row t p) q := by
  unfold prod2 Cert.Spec.joined
  refine Finset.sum_congr rfl fun k _ => ?_
  refine congrArg₂ (· * ·) (Finset.sum_congr rfl fun j _ => ?_) (blk2 m c t k q)
  exact congrArg₂ (· * ·) (blk0 m c t p j) (blk1 m c t j k)

/-! ## What point `t` writes back -/

theorem flushed_h (c : Dev nD) (t : Fin cfg0.N) :
    (dats m 0 c).flushed 8 t = ((cfg0.win 8).blk t).view.read (Elt Ideal) (Cert.Spec.kerH (args m c)) := by
  show (cfg0.win 8).cut (grid0.coords t) ((dats m 0 c).after 8 t) = _
  rw [after0_8]
  unfold out0_8
  rw [View.canon_unit_zero hz]
  simp only [View.ld_unit_zero (S := S512x4096) hz, View.ld_unit_zero (S := S4096x512) hz, View.ld_unit_zero (S := S512x512) hz,
    View.ld_unit_zero (S := S512x128) hz]
  funext y
  obtain ⟨p, n, rfl⟩ : ∃ (p : Fin 512) (n : Fin 128), y = ix2 p n := ⟨y 0, y 1, eq_ix2 y⟩
  show k0_pay3 (F := Ideal) (iblk m c 0 t) (iblk m c 1 t) (iblk m c 2 t) (iblk m c 4 t) (iblk m c 5 t) (iblk m c 7 t) (iblk m c 6 t) (iblk m c 3 t) (ix2 p n)
    = Cert.Spec.kerH (args m c) (((cfg0.win 8).blk t).view.emb (ix2 p n))
  refine ((pay3_apply (iblk m c 0 t) (iblk m c 1 t) (iblk m c 2 t) (iblk m c 4 t) (iblk m c 5 t) (iblk m c 7 t) (iblk m c 6 t) (iblk m c 3 t) p n).trans ?_).trans
    (congrArg (Cert.Spec.kerH (args m c)) (emb8 t p n)).symm
  simp only [prod_blk m c t p, blk3 m c t p n, blk4 m c t p n, blk5 m c t p n, blk6 m c t p n, blk7 m c t p n]
  rfl

theorem flushed_c (c : Dev nD) (t : Fin cfg0.N) :
    (dats m 0 c).flushed 9 t = ((cfg0.win 9).blk t).view.read (Elt Ideal) (Cert.Spec.kerC (args m c)) := by
  show (cfg0.win 9).cut (grid0.coords t) ((dats m 0 c).after 9 t) = _
  rw [after0_9]
  unfold out0_9
  rw [View.canon_unit_zero hz]
  simp only [View.ld_unit_zero (S := S512x4096) hz, View.ld_unit_zero (S := S4096x512) hz, View.ld_unit_zero (S := S512x512) hz,
    View.ld_unit_zero (S := S512x128) hz]
  funext y
  obtain ⟨p, n, rfl⟩ : ∃ (p : Fin 512) (n : Fin 128), y = ix2 p n := ⟨y 0, y 1, eq_ix2 y⟩
  show k0_pay2 (F := Ideal) (iblk m c 0 t) (iblk m c 1 t) (iblk m c 2 t) (iblk m c 4 t) (iblk m c 5 t) (iblk m c 6 t) (iblk m c 3 t) (ix2 p n)
    = Cert.Spec.kerC (args m c) (((cfg0.win 9).blk t).view.emb (ix2 p n))
  refine ((pay2_apply (iblk m c 0 t) (iblk m c 1 t) (iblk m c 2 t) (iblk m c 4 t) (iblk m c 5 t) (iblk m c 6 t) (iblk m c 3 t) p n).trans ?_).trans
    (congrArg (Cert.Spec.kerC (args m c)) (emb9 t p n)).symm
  simp only [prod_blk m c t p, blk3 m c t p n, blk4 m c t p n, blk5 m c t p n, blk6 m c t p n]
  rfl

/-! ## The row blocks tile the results -/

theorem mem_blk8 (t : Fin cfg0.N) (i : S4096x128.Idx) :
    i ∈ ((cfg0.win 8).blk t).view.set ↔ ∀ a : Fin 2, win0_8.index t a * S512x128.size a ≤ (i a).val ∧ (i a).val < win0_8.index t a * S512x128.size a + S512x128.size a := by
  show i ∈ ((View.whole main_v6_0).slice (win0_8.rect t)).set ↔ _
  rw [View.set_slice_whole, Rect.mem_set_unit]
  exact Iff.rfl

/-- Row r lies in the block of point r / 512. -/
theorem cover8 (i : S4096x128.Idx) : ∃ t : Fin cfg0.N, (cfg0.win 8).flush t = true ∧ i ∈ ((cfg0.win 8).blk t).view.set := by
  have hi0 : (i 0).val < 4096 := (i 0).isLt
  have hi1 : (i 1).val < 128 := (i 1).isLt
  have hN : (i 0).val / 512 < grid0.N := by rw [N_0]; omega
  have e0 := (idx_facts ⟨(i 0).val / 512, hN⟩).2.2.2.2.2.2.2.2.2.2.2.2.2.2.2.2.1
  have e1 := (idx_facts ⟨(i 0).val / 512, hN⟩).2.2.2.2.2.2.2.2.2.2.2.2.2.2.2.2.2.1
  refine ⟨⟨(i 0).val / 512, hN⟩, flush0_8 _, ?_⟩
  rw [mem_blk8]
  intro a
  match a with
  | ⟨0, _⟩ =>
    show win0_8.index ⟨(i 0).val / 512, hN⟩ (0 : Fin 2) * 512 ≤ (i 0).val ∧ (i 0).val < win0_8.index ⟨(i 0).val / 512, hN⟩ (0 : Fin 2) * 512 + 512
    rw [e0]; show (i 0).val / 512 * 512 ≤ (i 0).val ∧ (i 0).val < (i 0).val / 512 * 512 + 512; omega
  | ⟨1, _⟩ =>
    show win0_8.index ⟨(i 0).val / 512, hN⟩ (1 : Fin 2) * 128 ≤ (i 1).val ∧ (i 1).val < win0_8.index ⟨(i 0).val / 512, hN⟩ (1 : Fin 2) * 128 + 128
    rw [e1]; omega

theorem mem_blk9 (t : Fin cfg0.N) (i : S4096x128.Idx) :
    i ∈ ((cfg0.win 9).blk t).view.set ↔ ∀ a : Fin 2, win0_9.index t a * S512x128.size a ≤ (i a).val ∧ (i a).val < win0_9.index t a * S512x128.size a + S512x128.size a := by
  show i ∈ ((View.whole main_v6_1).slice (win0_9.rect t)).set ↔ _
  rw [View.set_slice_whole, Rect.mem_set_unit]
  exact Iff.rfl

/-- Row r lies in the block of point r / 512. -/
theorem cover9 (i : S4096x128.Idx) : ∃ t : Fin cfg0.N, (cfg0.win 9).flush t = true ∧ i ∈ ((cfg0.win 9).blk t).view.set := by
  have hi0 : (i 0).val < 4096 := (i 0).isLt
  have hi1 : (i 1).val < 128 := (i 1).isLt
  have hN : (i 0).val / 512 < grid0.N := by rw [N_0]; omega
  have e0 := (idx_facts ⟨(i 0).val / 512, hN⟩).2.2.2.2.2.2.2.2.2.2.2.2.2.2.2.2.2.2.1
  have e1 := (idx_facts ⟨(i 0).val / 512, hN⟩).2.2.2.2.2.2.2.2.2.2.2.2.2.2.2.2.2.2.2
  refine ⟨⟨(i 0).val / 512, hN⟩, flush0_9 _, ?_⟩
  rw [mem_blk9]
  intro a
  match a with
  | ⟨0, _⟩ =>
    show win0_9.index ⟨(i 0).val / 512, hN⟩ (0 : Fin 2) * 512 ≤ (i 0).val ∧ (i 0).val < win0_9.index ⟨(i 0).val / 512, hN⟩ (0 : Fin 2) * 512 + 512
    rw [e0]; show (i 0).val / 512 * 512 ≤ (i 0).val ∧ (i 0).val < (i 0).val / 512 * 512 + 512; omega
  | ⟨1, _⟩ =>
    show win0_9.index ⟨(i 0).val / 512, hN⟩ (1 : Fin 2) * 128 ≤ (i 1).val ∧ (i 1).val < win0_9.index ⟨(i 0).val / 512, hN⟩ (1 : Fin 2) * 128 + 128
    rw [e1]; omega

/-! ## The arrays after the run -/

theorem final_h (c : Dev nD) : (dats m 0 c).arrAt 8 cfg0.N = Cert.Spec.kerH (args m c) :=
  (dats m 0 c).arrAt_eq_of_cover 8 (Cert.Spec.kerH (args m c)) (fun t _ => flushed_h m c t) cover8

theorem final_c (c : Dev nD) : (dats m 0 c).arrAt 9 cfg0.N = Cert.Spec.kerC (args m c) :=
  (dats m 0 c).arrAt_eq_of_cover 9 (Cert.Spec.kerC (args m c)) (fun t _ => flushed_c m c t) cover9

/-- The run, read: both results are the joined arrangement of the argument arrays, and the arguments end as launched. -/
theorem run : θ_run defs (onTc (τ := τ) (main (F := Ideal))) ⟨m, fun _ => 0, ρ⟩ (fun r => ∀ c : Dev nD,
      r.2.mem ((c.tc : Thread nD τ).loc main_v6_0) = Cert.Spec.kerH (args m c)
      ∧ r.2.mem ((c.tc : Thread nD τ).loc main_v6_1) = Cert.Spec.kerC (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨((h c).1 8).trans (final_h m c), ((h c).1 9).trans (final_c m c),
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).1 4).trans (((dats m 0 c).arrAt_in 4 rfl _).trans ((A_eq m c 4).trans (V_main_arg15 m c))),
      ((h c).1 5).trans (((dats m 0 c).arrAt_in 5 rfl _).trans ((A_eq m c 5).trans (V_main_arg16 m c))),
      ((h c).1 6).trans (((dats m 0 c).arrAt_in 6 rfl _).trans ((A_eq m c 6).trans (V_main_arg17 m c))),
      ((h c).1 7).trans (((dats m 0 c).arrAt_in 7 rfl _).trans ((A_eq m c 7).trans (V_main_arg18 m c)))⟩) (run_main m ρ)

end Cert.KernelIdeal.KerValue

end
-- ==== Proof.RefSide.lean ====
import proofs.«122012_g21629455302669_cont_8to1_1577_3_alg».proof.Defs
import proofs.«122012_g21629455302669_cont_8to1_1577_3_alg».proof.Proof.Gen.ReferenceIdeal.Run
import proofs.«122012_g21629455302669_cont_8to1_1577_3_alg».proof.Proof.Gen.ReferenceIdeal.Read
import proofs.«122012_g21629455302669_cont_8to1_1577_3_alg».proof.Proof.Spec

/-!
  The reference program computes the specification's reference arrangement.

  Each of the reference's eleven graph convolutions is a pair of matrix products, the inner one Z · W and the outer
  one A · (Z · W); read at row p, column q the pair is the double sum `gc A Z W p q`. A gate's pre-activation adds
  three (for the candidate gate two) of them and a bias. The reference spells the logistic function as
  1 / (1 + exp (-x)) with the constant one written as the word 0x3F800000, which is the logistic function of the
  specification once that word is read as the number one. The tail then is the specification's, term by term.
-/

noncomputable section

namespace Cert.RefSide

open Cert.ReferenceIdeal Cert.ReferenceIdeal.Read Idealize.ShloMosaic Idealize.ShloMosaic.ValueIdx Cert.Spec

/-- The single-precision word 0x3F800000 denotes the number one: 2^23 · 2^(127 - 127 - 23). -/
theorem one_f32 : Ideal.ofBits .f32 0x3F800000#32 = 1 := by
  simp [Ideal.ofBits, Ideal.ieee]
  rw [← EReal.coe_mul, ← EReal.coe_one, EReal.coe_eq_coe_iff]
  norm_num

/-- The logistic function spelled with division, exponential, negation and the constant one. -/
theorem logistic_spelled (x : EReal) :
    Ideal.div (Ideal.ofBits .f32 0x3F800000#32) (Ideal.ofBits .f32 0x3F800000#32 + Ideal.exp (-x)) = Ideal.logistic x := by
  rw [one_f32]
  rfl

/-- A rank-2 index is determined by its two coordinates. -/
theorem eq2 {n0 n1 : Nat} (f : (⟨2, ![n0, n1]⟩ : Shape).Idx) (a : Fin n0) (b : Fin n1)
    (h0 : (f 0).val = a.val) (h1 : (f 1).val = b.val) : f = ix2 a b :=
  funext fun d => Fin.ext (by match d with | ⟨0, _⟩ => exact h0 | ⟨1, _⟩ => exact h1)

/-! ## The graph convolutions -/

theorem d_v0 (Z : Mat 4096 256) (W : Mat 256 128) (j : Fin 4096) (n : Fin 128) :
    val_main_v0 (F := Ideal) Z W (ix2 j n) = ∑ k : Fin 256, Z (ix2 j k) * W (ix2 k n) := by
  rw [val_main_v0_apply]
  refine Finset.sum_congr rfl fun k _ => ?_
  rw [show lidx_main_v0 (ix2 j n) k = ix2 j k from eq2 _ _ _ rfl rfl,
    show ridx_main_v0 (ix2 j n) k = ix2 k n from eq2 _ _ _ rfl rfl]

theorem g_v1 (A : Mat 4096 4096) (Z : Mat 4096 256) (W : Mat 256 128) (p : Fin 4096) (q : Fin 128) :
    val_main_v1 (F := Ideal) Z A W (ix2 p q) = gc A Z W p q := by
  rw [val_main_v1_apply]
  unfold gc
  refine Finset.sum_congr rfl fun j _ => ?_
  rw [show lidx_main_v1 (ix2 p q) j = ix2 p j from eq2 _ _ _ rfl rfl,
    show ridx_main_v1 (ix2 p q) j = ix2 j q from eq2 _ _ _ rfl rfl, d_v0]

theorem d_v2 (Z : Mat 4096 128) (W : Mat 128 128) (j : Fin 4096) (n : Fin 128) :
    val_main_v2 (F := Ideal) Z W (ix2 j n) = ∑ k : Fin 128, Z (ix2 j k) * W (ix2 k n) := by
  rw [val_main_v2_apply]
  refine Finset.sum_congr rfl fun k _ => ?_
  rw [show lidx_main_v2 (ix2 j n) k = ix2 j k from eq2 _ _ _ rfl rfl,
    show ridx_main_v2 (ix2 j n) k = ix2 k n from eq2 _ _ _ rfl rfl]

theorem g_v3 (A : Mat 4096 4096) (Z : Mat 4096 128) (W : Mat 128 128) (p : Fin 4096) (q : Fin 128) :
    val_main_v3 (F := Ideal) A Z W (ix2 p q) = gc A Z W p q := by
  rw [val_main_v3_apply]
  unfold gc
  refine Finset.sum_congr rfl fun j _ => ?_
  rw [show lidx_main_v3 (ix2 p q) j = ix2 p j from eq2 _ _ _ rfl rfl,
    show ridx_main_v3 (ix2 p q) j = ix2 j q from eq2 _ _ _ rfl rfl, d_v2]

theorem d_v5 (Z : Mat 4096 128) (W : Mat 128 128) (j : Fin 4096) (n : Fin 128) :
    val_main_v5 (F := Ideal) Z W (ix2 j n) = ∑ k : Fin 128, Z (ix2 j k) * W (ix2 k n) := by
  rw [val_main_v5_apply]
  refine Finset.sum_congr rfl fun k _ => ?_
  rw [show lidx_main_v5 (ix2 j n) k = ix2 j k from eq2 _ _ _ rfl rfl,
    show ridx_main_v5 (ix2 j n) k = ix2 k n from eq2 _ _ _ rfl rfl]

theorem g_v6 (A : Mat 4096 4096) (Z : Mat 4096 128) (W : Mat 128 128) (p : Fin 4096) (q : Fin 128) :
    val_main_v6 (F := Ideal) A Z W (ix2 p q) = gc A Z W p q := by
  rw [val_main_v6_apply]
  unfold gc
  refine Finset.sum_congr rfl fun j _ => ?_
  rw [show lidx_main_v6 (ix2 p q) j = ix2 p j from eq2 _ _ _ rfl rfl,
    show ridx_main_v6 (ix2 p q) j = ix2 j q from eq2 _ _ _ rfl rfl, d_v5]

theorem d_v15 (Z : Mat 4096 256) (W : Mat 256 128) (j : Fin 4096) (n : Fin 128) :
    val_main_v15 (F := Ideal) Z W (ix2 j n) = ∑ k : Fin 256, Z (ix2 j k) * W (ix2 k n) := by
  rw [val_main_v15_apply]
  refine Finset.sum_congr rfl fun k _ => ?_
  rw [show lidx_main_v15 (ix2 j n) k = ix2 j k from eq2 _ _ _ rfl rfl,
    show ridx_main_v15 (ix2 j n) k = ix2 k n from eq2 _ _ _ rfl rfl]

theorem g_v16 (A : Mat 4096 4096) (Z : Mat 4096 256) (W : Mat 256 128) (p : Fin 4096) (q : Fin 128) :
    val_main_v16 (F := Ideal) Z A W (ix2 p q) = gc A Z W p q := by
  rw [val_main_v16_apply]
  unfold gc
  refine Finset.sum_congr rfl fun j _ => ?_
  rw [show lidx_main_v16 (ix2 p q) j = ix2 p j from eq2 _ _ _ rfl rfl,
    show ridx_main_v16 (ix2 p q) j = ix2 j q from eq2 _ _ _ rfl rfl, d_v15]

theorem d_v17 (Z : Mat 4096 128) (W : Mat 128 128) (j : Fin 4096) (n : Fin 128) :
    val_main_v17 (F := Ideal) Z W (ix2 j n) = ∑ k : Fin 128, Z (ix2 j k) * W (ix2 k n) := by
  rw [val_main_v17_apply]
  refine Finset.sum_congr rfl fun k _ => ?_
  rw [show lidx_main_v17 (ix2 j n) k = ix2 j k from eq2 _ _ _ rfl rfl,
    show ridx_main_v17 (ix2 j n) k = ix2 k n from eq2 _ _ _ rfl rfl]

theorem g_v18 (A : Mat 4096 4096) (Z : Mat 4096 128) (W : Mat 128 128) (p : Fin 4096) (q : Fin 128) :
    val_main_v18 (F := Ideal) A Z W (ix2 p q) = gc A Z W p q := by
  rw [val_main_v18_apply]
  unfold gc
  refine Finset.sum_congr rfl fun j _ => ?_
  rw [show lidx_main_v18 (ix2 p q) j = ix2 p j from eq2 _ _ _ rfl rfl,
    show ridx_main_v18 (ix2 p q) j = ix2 j q from eq2 _ _ _ rfl rfl, d_v17]

theorem d_v20 (Z : Mat 4096 128) (W : Mat 128 128) (j : Fin 4096) (n : Fin 128) :
    val_main_v20 (F := Ideal) Z W (ix2 j n) = ∑ k : Fin 128, Z (ix2 j k) * W (ix2 k n) := by
  rw [val_main_v20_apply]
  refine Finset.sum_congr rfl fun k _ => ?_
  rw [show lidx_main_v20 (ix2 j n) k = ix2 j k from eq2 _ _ _ rfl rfl,
    show ridx_main_v20 (ix2 j n) k = ix2 k n from eq2 _ _ _ rfl rfl]

theorem g_v21 (A : Mat 4096 4096) (Z : Mat 4096 128) (W : Mat 128 128) (p : Fin 4096) (q : Fin 128) :
    val_main_v21 (F := Ideal) A Z W (ix2 p q) = gc A Z W p q := by
  rw [val_main_v21_apply]
  unfold gc
  refine Finset.sum_congr rfl fun j _ => ?_
  rw [show lidx_main_v21 (ix2 p q) j = ix2 p j from eq2 _ _ _ rfl rfl,
    show ridx_main_v21 (ix2 p q) j = ix2 j q from eq2 _ _ _ rfl rfl, d_v20]

theorem d_v30 (Z : Mat 4096 256) (W : Mat 256 128) (j : Fin 4096) (n : Fin 128) :
    val_main_v30 (F := Ideal) Z W (ix2 j n) = ∑ k : Fin 256, Z (ix2 j k) * W (ix2 k n) := by
  rw [val_main_v30_apply]
  refine Finset.sum_congr rfl fun k _ => ?_
  rw [show lidx_main_v30 (ix2 j n) k = ix2 j k from eq2 _ _ _ rfl rfl,
    show ridx_main_v30 (ix2 j n) k = ix2 k n from eq2 _ _ _ rfl rfl]

theorem g_v31 (A : Mat 4096 4096) (Z : Mat 4096 256) (W : Mat 256 128) (p : Fin 4096) (q : Fin 128) :
    val_main_v31 (F := Ideal) Z A W (ix2 p q) = gc A Z W p q := by
  rw [val_main_v31_apply]
  unfold gc
  refine Finset.sum_congr rfl fun j _ => ?_
  rw [show lidx_main_v31 (ix2 p q) j = ix2 p j from eq2 _ _ _ rfl rfl,
    show ridx_main_v31 (ix2 p q) j = ix2 j q from eq2 _ _ _ rfl rfl, d_v30]

theorem d_v32 (Z : Mat 4096 128) (W : Mat 128 128) (j : Fin 4096) (n : Fin 128) :
    val_main_v32 (F := Ideal) Z W (ix2 j n) = ∑ k : Fin 128, Z (ix2 j k) * W (ix2 k n) := by
  rw [val_main_v32_apply]
  refine Finset.sum_congr rfl fun k _ => ?_
  rw [show lidx_main_v32 (ix2 j n) k = ix2 j k from eq2 _ _ _ rfl rfl,
    show ridx_main_v32 (ix2 j n) k = ix2 k n from eq2 _ _ _ rfl rfl]

theorem g_v33 (A : Mat 4096 4096) (Z : Mat 4096 128) (W : Mat 128 128) (p : Fin 4096) (q : Fin 128) :
    val_main_v33 (F := Ideal) A Z W (ix2 p q) = gc A Z W p q := by
  rw [val_main_v33_apply]
  unfold gc
  refine Finset.sum_congr rfl fun j _ => ?_
  rw [show lidx_main_v33 (ix2 p q) j = ix2 p j from eq2 _ _ _ rfl rfl,
    show ridx_main_v33 (ix2 p q) j = ix2 j q from eq2 _ _ _ rfl rfl, d_v32]

theorem d_v35 (Z : Mat 4096 128) (W : Mat 128 128) (j : Fin 4096) (n : Fin 128) :
    val_main_v35 (F := Ideal) Z W (ix2 j n) = ∑ k : Fin 128, Z (ix2 j k) * W (ix2 k n) := by
  rw [val_main_v35_apply]
  refine Finset.sum_congr rfl fun k _ => ?_
  rw [show lidx_main_v35 (ix2 j n) k = ix2 j k from eq2 _ _ _ rfl rfl,
    show ridx_main_v35 (ix2 j n) k = ix2 k n from eq2 _ _ _ rfl rfl]

theorem g_v36 (A : Mat 4096 4096) (Z : Mat 4096 128) (W : Mat 128 128) (p : Fin 4096) (q : Fin 128) :
    val_main_v36 (F := Ideal) A Z W (ix2 p q) = gc A Z W p q := by
  rw [val_main_v36_apply]
  unfold gc
  refine Finset.sum_congr rfl fun j _ => ?_
  rw [show lidx_main_v36 (ix2 p q) j = ix2 p j from eq2 _ _ _ rfl rfl,
    show ridx_main_v36 (ix2 p q) j = ix2 j q from eq2 _ _ _ rfl rfl, d_v35]

theorem d_v45 (Z : Mat 4096 256) (W : Mat 256 128) (j : Fin 4096) (n : Fin 128) :
    val_main_v45 (F := Ideal) Z W (ix2 j n) = ∑ k : Fin 256, Z (ix2 j k) * W (ix2 k n) := by
  rw [val_main_v45_apply]
  refine Finset.sum_congr rfl fun k _ => ?_
  rw [show lidx_main_v45 (ix2 j n) k = ix2 j k from eq2 _ _ _ rfl rfl,
    show ridx_main_v45 (ix2 j n) k = ix2 k n from eq2 _ _ _ rfl rfl]

theorem g_v46 (A : Mat 4096 4096) (Z : Mat 4096 256) (W : Mat 256 128) (p : Fin 4096) (q : Fin 128) :
    val_main_v46 (F := Ideal) Z A W (ix2 p q) = gc A Z W p q := by
  rw [val_main_v46_apply]
  unfold gc
  refine Finset.sum_congr rfl fun j _ => ?_
  rw [show lidx_main_v46 (ix2 p q) j = ix2 p j from eq2 _ _ _ rfl rfl,
    show ridx_main_v46 (ix2 p q) j = ix2 j q from eq2 _ _ _ rfl rfl, d_v45]

theorem d_v47 (Z : Mat 4096 128) (W : Mat 128 128) (j : Fin 4096) (n : Fin 128) :
    val_main_v47 (F := Ideal) Z W (ix2 j n) = ∑ k : Fin 128, Z (ix2 j k) * W (ix2 k n) := by
  rw [val_main_v47_apply]
  refine Finset.sum_congr rfl fun k _ => ?_
  rw [show lidx_main_v47 (ix2 j n) k = ix2 j k from eq2 _ _ _ rfl rfl,
    show ridx_main_v47 (ix2 j n) k = ix2 k n from eq2 _ _ _ rfl rfl]

theorem g_v48 (A : Mat 4096 4096) (Z : Mat 4096 128) (W : Mat 128 128) (p : Fin 4096) (q : Fin 128) :
    val_main_v48 (F := Ideal) A Z W (ix2 p q) = gc A Z W p q := by
  rw [val_main_v48_apply]
  unfold gc
  refine Finset.sum_congr rfl fun j _ => ?_
  rw [show lidx_main_v48 (ix2 p q) j = ix2 p j from eq2 _ _ _ rfl rfl,
    show ridx_main_v48 (ix2 p q) j = ix2 j q from eq2 _ _ _ rfl rfl, d_v47]

/-! ## The gates' pre-activations -/

theorem pre_i (a : Args) (p : Fin 4096) (q : Fin 128) :
    val_main_v8 (F := Ideal) a.X a.A a.h a.c a.Wui a.Wwi a.Wvi a.bi (ix2 p q) = pre3 a a.Wui a.Wwi a.Wvi a.bi (ix2 p q) := by
  rw [val_main_v8_apply, val_main_v7_apply, val_main_v4_apply, g_v1, g_v3, g_v6]
  rfl

theorem pre_f (a : Args) (p : Fin 4096) (q : Fin 128) :
    val_main_v23 (F := Ideal) a.X a.A a.h a.c a.Wuf a.Wwf a.Wvf a.bf (ix2 p q) = pre3 a a.Wuf a.Wwf a.Wvf a.bf (ix2 p q) := by
  rw [val_main_v23_apply, val_main_v22_apply, val_main_v19_apply, g_v16, g_v18, g_v21]
  rfl

theorem pre_o (a : Args) (p : Fin 4096) (q : Fin 128) :
    val_main_v38 (F := Ideal) a.X a.A a.h a.c a.Wuo a.Wwo a.Wvo a.bo (ix2 p q) = pre3 a a.Wuo a.Wwo a.Wvo a.bo (ix2 p q) := by
  rw [val_main_v38_apply, val_main_v37_apply, val_main_v34_apply, g_v31, g_v33, g_v36]
  rfl

theorem pre_g (a : Args) (p : Fin 4096) (q : Fin 128) :
    val_main_v50 (F := Ideal) a.X a.A a.h a.Wug a.Wwg a.bg (ix2 p q) = pre2 a a.Wug a.Wwg a.bg (ix2 p q) := by
  rw [val_main_v50_apply, val_main_v49_apply, g_v46, g_v48]
  rfl

/-! ## The logistic gates -/

theorem sig_i (a : Args) (i : S4096x128.Idx) :
    val_main_v14 (F := Ideal) a.X a.A a.h a.c a.Wui a.Wwi a.Wvi a.bi i = Ideal.logistic (val_main_v8 (F := Ideal) a.X a.A a.h a.c a.Wui a.Wwi a.Wvi a.bi i) := by
  rw [val_main_v14_apply, val_main_v13_apply, val_main_cst_0_apply, val_main_v12_apply, val_main_v11_apply,
    val_main_cst_apply, val_main_v10_apply, val_main_v9_apply]
  exact logistic_spelled _

theorem sig_f (a : Args) (i : S4096x128.Idx) :
    val_main_v29 (F := Ideal) a.X a.A a.h a.c a.Wuf a.Wwf a.Wvf a.bf i = Ideal.logistic (val_main_v23 (F := Ideal) a.X a.A a.h a.c a.Wuf a.Wwf a.Wvf a.bf i) := by
  rw [val_main_v29_apply, val_main_v28_apply, val_main_cst_2_apply, val_main_v27_apply, val_main_v26_apply,
    val_main_cst_1_apply, val_main_v25_apply, val_main_v24_apply]
  exact logistic_spelled _

theorem sig_o (a : Args) (i : S4096x128.Idx) :
    val_main_v44 (F := Ideal) a.X a.A a.h a.c a.Wuo a.Wwo a.Wvo a.bo i = Ideal.logistic (val_main_v38 (F := Ideal) a.X a.A a.h a.c a.Wuo a.Wwo a.Wvo a.bo i) := by
  rw [val_main_v44_apply, val_main_v43_apply, val_main_cst_4_apply, val_main_v42_apply, val_main_v41_apply,
    val_main_cst_3_apply, val_main_v40_apply, val_main_v39_apply]
  exact logistic_spelled _

/-! ## The tail -/

/-- The new cell state at an index, from the gates' pre-activations there. -/
theorem c_read (a : Args) (i : S4096x128.Idx) :
    val_main_v61 (F := Ideal) a.X a.A a.h a.c a.Wui a.Wwi a.Wvi a.Wuf a.Wwf a.Wvf a.Wug a.Wwg a.bi a.bf a.bg i
      = cellNew (val_main_v8 (F := Ideal) a.X a.A a.h a.c a.Wui a.Wwi a.Wvi a.bi i) (val_main_v23 (F := Ideal) a.X a.A a.h a.c a.Wuf a.Wwf a.Wvf a.bf i)
          (val_main_v50 (F := Ideal) a.X a.A a.h a.Wug a.Wwg a.bg i) (a.c i) := by
  rw [val_main_v61_apply, val_main_v60_apply, val_main_cst_6_apply, val_main_v59_apply, val_main_v58_apply,
    val_main_cst_5_apply, val_main_v57_apply, val_main_v56_apply]
  refine (logistic_spelled _).trans ?_
  rw [val_main_v55_apply, val_main_v53_apply, val_main_v54_apply, sig_f, sig_i, val_main_v52_apply, val_main_v51_apply]
  rfl

/-- The new hidden state at an index, from the gates' pre-activations there. -/
theorem h_read (a : Args) (i : S4096x128.Idx) :
    val_main_v63 (F := Ideal) a.X a.A a.h a.c a.Wui a.Wwi a.Wvi a.Wuf a.Wwf a.Wvf a.Wug a.Wwg a.Wuo a.Wwo a.Wvo a.bi a.bf a.bg a.bo i
      = hidNew (val_main_v8 (F := Ideal) a.X a.A a.h a.c a.Wui a.Wwi a.Wvi a.bi i) (val_main_v23 (F := Ideal) a.X a.A a.h a.c a.Wuf a.Wwf a.Wvf a.bf i)
          (val_main_v38 (F := Ideal) a.X a.A a.h a.c a.Wuo a.Wwo a.Wvo a.bo i) (val_main_v50 (F := Ideal) a.X a.A a.h a.Wug a.Wwg a.bg i) (a.c i) := by
  rw [val_main_v63_apply, val_main_v62_apply, c_read, sig_o]
  rfl

theorem ref_c_args (a : Args) : val_main_v61 (F := Ideal) a.X a.A a.h a.c a.Wui a.Wwi a.Wvi a.Wuf a.Wwf a.Wvf a.Wug a.Wwg a.bi a.bf a.bg = refC a := by
  funext i
  obtain ⟨p, q, rfl⟩ : ∃ (p : Fin 4096) (q : Fin 128), i = ix2 p q := ⟨i 0, i 1, eq_ix2 i⟩
  rw [c_read, pre_i, pre_f, pre_g]
  rfl

theorem ref_h_args (a : Args) : val_main_v63 (F := Ideal) a.X a.A a.h a.c a.Wui a.Wwi a.Wvi a.Wuf a.Wwf a.Wvf a.Wug a.Wwg a.Wuo a.Wwo a.Wvo a.bi a.bf a.bg a.bo = refH a := by
  funext i
  obtain ⟨p, q, rfl⟩ : ∃ (p : Fin 4096) (q : Fin 128), i = ix2 p q := ⟨i 0, i 1, eq_ix2 i⟩
  rw [h_read, pre_i, pre_f, pre_o, pre_g]
  rfl

/-! ## The statements over the nineteen argument arrays -/

section
variable (x0 : (⟨S4096x256, .f32⟩ : BufTy).Contents (Elt Ideal)) (x1 : (⟨S4096x4096, .f32⟩ : BufTy).Contents (Elt Ideal))
  (x2 x3 : (⟨S4096x128, .f32⟩ : BufTy).Contents (Elt Ideal)) (x4 : (⟨S256x128, .f32⟩ : BufTy).Contents (Elt Ideal))
  (x5 x6 : (⟨S128x128, .f32⟩ : BufTy).Contents (Elt Ideal)) (x7 : (⟨S256x128, .f32⟩ : BufTy).Contents (Elt Ideal))
  (x8 x9 : (⟨S128x128, .f32⟩ : BufTy).Contents (Elt Ideal)) (x10 : (⟨S256x128, .f32⟩ : BufTy).Contents (Elt Ideal))
  (x11 : (⟨S128x128, .f32⟩ : BufTy).Contents (Elt Ideal)) (x12 : (⟨S256x128, .f32⟩ : BufTy).Contents (Elt Ideal))
  (x13 x14 : (⟨S128x128, .f32⟩ : BufTy).Contents (Elt Ideal)) (x15 x16 x17 x18 : (⟨S4096x128, .f32⟩ : BufTy).Contents (Elt Ideal))

/-- The reference's new hidden state is the specification's reference arrangement of it. -/
theorem ref_h :
    val_main_v63 (F := Ideal) x0 x1 x2 x3 x4 x5 x6 x7 x8 x9 x10 x11 x12 x13 x14 x15 x16 x17 x18
      = refH ⟨x0, x1, x2, x3, x4, x5, x6, x7, x8, x9, x10, x11, x12, x13, x14, x15, x16, x17, x18⟩ :=
  ref_h_args ⟨x0, x1, x2, x3, x4, x5, x6, x7, x8, x9, x10, x11, x12, x13, x14, x15, x16, x17, x18⟩

/-- The reference's new cell state is the specification's reference arrangement of it. -/
theorem ref_c :
    val_main_v61 (F := Ideal) x0 x1 x2 x3 x4 x5 x6 x7 x8 x9 x10 x11 x15 x16 x17
      = refC ⟨x0, x1, x2, x3, x4, x5, x6, x7, x8, x9, x10, x11, x12, x13, x14, x15, x16, x17, x18⟩ :=
  ref_c_args ⟨x0, x1, x2, x3, x4, x5, x6, x7, x8, x9, x10, x11, x12, x13, x14, x15, x16, x17, x18⟩

end

end Cert.RefSide

end
-- ==== Proof.Finite.lean ====
import proofs.«122012_g21629455302669_cont_8to1_1577_3_alg».proof.Defs
import proofs.«122012_g21629455302669_cont_8to1_1577_3_alg».proof.Proof.Gen.Pre_finite_inputs
import proofs.«122012_g21629455302669_cont_8to1_1577_3_alg».proof.Proof.Spec
import Idealize.ShloMosaic.Lib.ReduceAll
import Idealize.ShloMosaic.Lib.Pipeline.Value
import Idealize.ShloMosaic.PureOps.Ideal.Laws

/-!
  The precondition on the inputs says that every entry of every argument array is a real number.

  The precondition is the conjunction, over the nineteen argument arrays, of "every entry x of the array has
  |x| < +∞". On the extended reals |x| = max x (-x) is +∞ at both infinities, so |x| < +∞ leaves exactly the reals.
-/

noncomputable section

namespace Cert.Finite

open Idealize.ShloMosaic Idealize.ShloMosaic.ValueIdx Cert.Spec Cert.Pre_finite_inputs

/-- The rank-0 shape has one index. -/
instance : Subsingleton S_.Idx := ⟨fun _ _ => funext fun d => d.elim0⟩

/-- The single-precision word 0x7F800000 denotes +∞. -/
theorem inf_f32 : Ideal.ofBits .f32 0x7F800000#32 = ⊤ := by
  simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- "All entries of an a × b array have absolute value below +∞", as the precondition spells it, says that every
    entry is a real number. -/
theorem real_of_all {a b : Nat} (x : Mat a b)
    (bc : S_.BroadcastsInDim (⟨2, ![a, b]⟩ : Shape) (![] : Fin 0 → Fin 2))
    (rd : (⟨2, ![a, b]⟩ : Shape).ReducesTo [0, 1] S_) (hu : 0 < S_.numel) (j : S_.Idx)
    (e : Host.reduce IntOp.andi
        (cmpf .olt (Host.absf (F := Ideal) (φ := .f32) x)
          (broadcastInDim (⟨2, ![a, b]⟩ : Shape) ![] bc (constant (F := Ideal) S_ .f32 0x7F800000#32)))
        (constantI S_ 1 1#1) rd hu j = 1#1) :
    x.Real := by
  intro i
  have hi := Host.reduce_andi_all _ _ rd hu j e i
  have hb : broadcastInDim (⟨2, ![a, b]⟩ : Shape) ![] bc (constant (F := Ideal) S_ .f32 0x7F800000#32) i = ⊤ :=
    (broadcastInDim_apply _ bc _ i ix0 (fun d => d.elim0)).trans inf_f32
  change Ideal.cmp .olt (max (x i) (-(x i)))
    (broadcastInDim (⟨2, ![a, b]⟩ : Shape) ![] bc (constant (F := Ideal) S_ .f32 0x7F800000#32) i) = 1#1 at hi
  rw [hb] at hi
  refine real_of_abs_lt_top _ ?_
  by_contra hn
  simp [Ideal.cmp, hn] at hi

section
variable {x0 : FVec Ideal S4096x256 .f32} {x1 : FVec Ideal S4096x4096 .f32} {x2 : FVec Ideal S4096x128 .f32} {x3 : FVec Ideal S4096x128 .f32} {x4 : FVec Ideal S256x128 .f32} {x5 : FVec Ideal S128x128 .f32} {x6 : FVec Ideal S128x128 .f32} {x7 : FVec Ideal S256x128 .f32} {x8 : FVec Ideal S128x128 .f32} {x9 : FVec Ideal S128x128 .f32} {x10 : FVec Ideal S256x128 .f32} {x11 : FVec Ideal S128x128 .f32} {x12 : FVec Ideal S256x128 .f32} {x13 : FVec Ideal S128x128 .f32} {x14 : FVec Ideal S128x128 .f32} {x15 : FVec Ideal S4096x128 .f32} {x16 : FVec Ideal S4096x128 .f32} {x17 : FVec Ideal S4096x128 .f32} {x18 : FVec Ideal S4096x128 .f32}

/-- The precondition on the inputs gives that every entry of every argument array is a real number. -/
theorem real_of_pre
    (h : Cert.Pre_finite_inputs.fn (F := Ideal) x0 x1 x2 x3 x4 x5 x6 x7 x8 x9 x10 x11 x12 x13 x14 x15 x16 x17 x18 = (fun _ => 1#1)) :
    Args.Real ⟨x0, x1, x2, x3, x4, x5, x6, x7, x8, x9, x10, x11, x12, x13, x14, x15, x16, x17, x18⟩ := by
  have h0 := congrFun h ix0
  dsimp only [fn, fn_part1, fn_part2, fn_part3, fn_part4, fn_part5, andi] at h0
  obtain ⟨h0, e18⟩ := IntOp.andi_eq_one.1 h0
  obtain ⟨h0, e17⟩ := IntOp.andi_eq_one.1 h0
  obtain ⟨h0, e16⟩ := IntOp.andi_eq_one.1 h0
  obtain ⟨h0, e15⟩ := IntOp.andi_eq_one.1 h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all x0 _ _ _ _ e0,
    real_of_all x1 _ _ _ _ e1,
    real_of_all x2 _ _ _ _ e2,
    real_of_all x3 _ _ _ _ e3,
    real_of_all x4 _ _ _ _ e4,
    real_of_all x5 _ _ _ _ e5,
    real_of_all x6 _ _ _ _ e6,
    real_of_all x7 _ _ _ _ e7,
    real_of_all x8 _ _ _ _ e8,
    real_of_all x9 _ _ _ _ e9,
    real_of_all x10 _ _ _ _ e10,
    real_of_all x11 _ _ _ _ e11,
    real_of_all x12 _ _ _ _ e12,
    real_of_all x13 _ _ _ _ e13,
    real_of_all x14 _ _ _ _ e14,
    real_of_all x15 _ _ _ _ e15,
    real_of_all x16 _ _ _ _ e16,
    real_of_all x17 _ _ _ _ e17,
    real_of_all x18 _ _ _ _ e18⟩

end

end Cert.Finite

end
-- ==== Proof.Algebra.lean ====
/-
  The joined arrangement of the graph-convolution LSTM cell equals the reference arrangement when every entry of
  every argument array is a real number.

  For one gate with weights Wu (from X), Ww (from h), Wv (from c), lane q = 128·G + n of the joined product is
      ∑ k < 512, (∑ j, A(r,j) · [X | h | c](j,k)) · W_all(k,q) .
  The sum over the 512 joined lanes splits into the blocks 256 + 128 + 128 (valid in any commutative monoid); on each
  block [X | h | c] and W_all are one of the argument matrices, so the block is ∑ k, (∑ j, A(r,j) · Z(j,k)) · W(k,n).
  For real entries this regroups into ∑ j, A(r,j) · ∑ k, Z(j,k) · W(k,n), one graph convolution: the regrouping is the
  only place where distributivity is used, and it is proved in ℝ and carried back through the coercion.

  Lane 128·G + n of the 512 × 512 matrix of all weights reads, on its three row blocks, the weights of gate G at
  column n (G = i, f, o, g in this order; for g the block fed by the cell state is zero, and a graph convolution with
  zero weights is zero). This gives each gate's pre-activation; the cells' tails are the same function of them.
-/
import proofs.«122012_g21629455302669_cont_8to1_1577_3_alg».proof.Proof.Spec
import Mathlib

noncomputable section

namespace Cert.Spec

open Idealize.ShloMosaic Idealize.ShloMosaic.ValueIdx

/-! ## Sums of real numbers inside the extended reals -/

/-- The coercion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- (∑ j, a j · z j k) · w k summed over k regroups into ∑ j, a j · ∑ k, z j k · w k, over the reals. -/
theorem regroup_real {J K : Type*} [Fintype J] [Fintype K] (a : J → ℝ) (z : J → K → ℝ) (w : K → ℝ) :
    ∑ k, (∑ j, a j * z j k) * w k = ∑ j, a j * ∑ k, z j k * w k := by
  simp only [Finset.sum_mul, Finset.mul_sum]
  rw [Finset.sum_comm]
  refine Finset.sum_congr rfl fun j _ => Finset.sum_congr rfl fun k _ => ?_
  ring

/-- The same regrouping over the extended reals, when every entry is a real number. -/
theorem regroup {J K : Type*} [Fintype J] [Fintype K] (a : J → EReal) (z : J → K → EReal) (w : K → EReal)
    (ha : ∀ j, ∃ x : ℝ, a j = (x : EReal)) (hz : ∀ j k, ∃ x : ℝ, z j k = (x : EReal))
    (hw : ∀ k, ∃ x : ℝ, w k = (x : EReal)) :
    ∑ k, (∑ j, a j * z j k) * w k = ∑ j, a j * ∑ k, z j k * w k := by
  choose ra hra using ha
  choose rz hrz using hz
  choose rw' hrw using hw
  simp only [hra, hrz, hrw, ← EReal.coe_mul, ← coe_sum]
  rw [regroup_real]

/-! ## The 512 joined lanes in blocks -/

/-- A sum over 512 lanes is the sum over its blocks of 256, 128 and 128 lanes. -/
theorem sum_fin512 {M : Type*} [AddCommMonoid M] (f : Fin 512 → M) :
    ∑ k, f k = ∑ k : Fin 256, f ⟨k.val, by omega⟩ + ∑ k : Fin 128, f ⟨256 + k.val, by omega⟩
      + ∑ k : Fin 128, f ⟨384 + k.val, by omega⟩ := by
  have h1 : ∑ k, f k = ∑ k : Fin 256, f ⟨k.val, by omega⟩ + ∑ k : Fin 256, f ⟨256 + k.val, by omega⟩ :=
    Fin.sum_univ_add (a := 256) (b := 256) (show Fin (256 + 256) → M from f)
  have h2 : ∑ k : Fin 256, f ⟨256 + k.val, by omega⟩
      = ∑ k : Fin 128, f ⟨256 + k.val, by omega⟩ + ∑ k : Fin 128, f ⟨384 + k.val, by omega⟩ := by
    have := Fin.sum_univ_add (a := 128) (b := 128) (fun k : Fin (128 + 128) => f ⟨256 + k.val, by omega⟩)
    refine this.trans (congrArg₂ (· + ·) rfl (Finset.sum_congr rfl fun k _ => congrArg f (Fin.ext ?_)))
    show 256 + (128 + k.val) = 384 + k.val
    omega
  rw [h1, h2, add_assoc]

/-- [X | h | c] on its three blocks. -/
theorem Zcat_X (a : Args) (j : Fin 4096) (k : Fin 256) : Zcat a j ⟨k.val, by omega⟩ = a.X (ix2 j k) := by
  unfold Zcat; rw [dif_pos k.isLt]
theorem Zcat_h (a : Args) (j : Fin 4096) (k : Fin 128) : Zcat a j ⟨256 + k.val, by omega⟩ = a.h (ix2 j k) := by
  unfold Zcat
  rw [dif_neg (by show ¬ 256 + k.val < 256; omega), dif_pos (by show 256 + k.val < 384; omega)]
  exact congrArg (fun t => a.h (ix2 j t)) (Fin.ext (by show 256 + k.val - 256 = k.val; omega))
theorem Zcat_c (a : Args) (j : Fin 4096) (k : Fin 128) : Zcat a j ⟨384 + k.val, by omega⟩ = a.c (ix2 j k) := by
  unfold Zcat
  rw [dif_neg (by show ¬ 384 + k.val < 256; omega), dif_neg (by show ¬ 384 + k.val < 384; omega)]
  exact congrArg (fun t => a.c (ix2 j t)) (Fin.ext (by show 384 + k.val - 384 = k.val; omega))

/-- The joined product at lane q, for a lane on which W_all's three row blocks are the matrices Wu, Ww, Wv read at
    column n, is the sum of the three graph convolutions. -/
theorem joined_gate (a : Args) (ha : a.Real) (Wu : Mat 256 128) (Ww Wv : Mat 128 128)
    (hWu : Wu.Real) (hWw : Ww.Real) (hWv : Wv.Real) (r : Fin 4096) (q : Fin 512) (n : Fin 128)
    (hu : ∀ k : Fin 256, Wall a ⟨k.val, by omega⟩ q = Wu (ix2 k n))
    (hw : ∀ k : Fin 128, Wall a ⟨256 + k.val, by omega⟩ q = Ww (ix2 k n))
    (hv : ∀ k : Fin 128, Wall a ⟨384 + k.val, by omega⟩ q = Wv (ix2 k n)) :
    joined a r q = gc a.A a.X Wu r n + gc a.A a.h Ww r n + gc a.A a.c Wv r n := by
  unfold joined gc
  rw [sum_fin512]
  simp only [Zcat_X, Zcat_h, Zcat_c, hu, hw, hv]
  rw [regroup (fun j => a.A (ix2 r j)) (fun j k => a.X (ix2 j k)) (fun k => Wu (ix2 k n))
        (fun j => ha.A _) (fun j k => ha.X _) (fun k => hWu _),
      regroup (fun j => a.A (ix2 r j)) (fun j k => a.h (ix2 j k)) (fun k => Ww (ix2 k n))
        (fun j => ha.A _) (fun j k => ha.h _) (fun k => hWw _),
      regroup (fun j => a.A (ix2 r j)) (fun j k => a.c (ix2 j k)) (fun k => Wv (ix2 k n))
        (fun j => ha.A _) (fun j k => ha.c _) (fun k => hWv _)]

/-! ## Four matrices side by side, read on each block of lanes -/

theorem join4_0 {K : Nat} (W0 W1 W2 W3 : Mat K 128) (k : Fin K) (n : Fin 128) (q : Fin 512)
    (hq : q.val = n.val) : join4 W0 W1 W2 W3 k q = W0 (ix2 k n) := by
  unfold join4
  rw [dif_pos (by omega)]
  exact congrArg (fun t => W0 (ix2 k t)) (Fin.ext hq)

theorem join4_1 {K : Nat} (W0 W1 W2 W3 : Mat K 128) (k : Fin K) (n : Fin 128) (q : Fin 512)
    (hq : q.val = 128 + n.val) : join4 W0 W1 W2 W3 k q = W1 (ix2 k n) := by
  unfold join4
  rw [dif_neg (by omega), dif_pos (by omega)]
  exact congrArg (fun t => W1 (ix2 k t)) (Fin.ext (by show q.val - 128 = n.val; omega))

theorem join4_2 {K : Nat} (W0 W1 W2 W3 : Mat K 128) (k : Fin K) (n : Fin 128) (q : Fin 512)
    (hq : q.val = 256 + n.val) : join4 W0 W1 W2 W3 k q = W2 (ix2 k n) := by
  unfold join4
  rw [dif_neg (by omega), dif_neg (by omega), dif_pos (by omega)]
  exact congrArg (fun t => W2 (ix2 k t)) (Fin.ext (by show q.val - 256 = n.val; omega))

theorem join4_3 {K : Nat} (W0 W1 W2 W3 : Mat K 128) (k : Fin K) (n : Fin 128) (q : Fin 512)
    (hq : q.val = 384 + n.val) : join4 W0 W1 W2 W3 k q = W3 (ix2 k n) := by
  unfold join4
  rw [dif_neg (by omega), dif_neg (by omega), dif_neg (by omega)]
  exact congrArg (fun t => W3 (ix2 k t)) (Fin.ext (by show q.val - 384 = n.val; omega))

/-! ## The matrix of all weights on its three row blocks -/

theorem Wall_u (a : Args) (k : Fin 256) (q : Fin 512) :
    Wall a ⟨k.val, by omega⟩ q = join4 a.Wui a.Wuf a.Wuo a.Wug k q := by
  unfold Wall; rw [dif_pos k.isLt]

theorem Wall_w (a : Args) (k : Fin 128) (q : Fin 512) :
    Wall a ⟨256 + k.val, by omega⟩ q = join4 a.Wwi a.Wwf a.Wwo a.Wwg k q := by
  unfold Wall
  rw [dif_neg (by show ¬ 256 + k.val < 256; omega), dif_pos (by show 256 + k.val < 384; omega)]
  exact congrArg (fun t => join4 a.Wwi a.Wwf a.Wwo a.Wwg t q) (Fin.ext (by show 256 + k.val - 256 = k.val; omega))

theorem Wall_v (a : Args) (k : Fin 128) (q : Fin 512) :
    Wall a ⟨384 + k.val, by omega⟩ q = join4 a.Wvi a.Wvf a.Wvo (fun _ => 0) k q := by
  unfold Wall
  rw [dif_neg (by show ¬ 384 + k.val < 256; omega), dif_neg (by show ¬ 384 + k.val < 384; omega)]
  exact congrArg (fun t => join4 a.Wvi a.Wvf a.Wvo (fun _ => 0) t q)
    (Fin.ext (by show 384 + k.val - 384 = k.val; omega))

/-! ## The gates -/

/-- A graph convolution with zero weights is zero. -/
theorem gc_zero {K : Nat} (A : Mat 4096 4096) (Z : Mat 4096 K) (r : Fin 4096) (n : Fin 128) :
    gc A Z (fun _ => 0) r n = 0 := by
  unfold gc
  simp only [mul_zero, Finset.sum_const_zero]

theorem zero_real : Mat.Real (fun _ => 0 : Mat 128 128) := fun _ => ⟨0, EReal.coe_zero.symm⟩

theorem preJ_i (a : Args) (ha : a.Real) (b : Mat 4096 128) (r : Fin 4096) (n : Fin 128) :
    preJ a 0 b (ix2 r n) = pre3 a a.Wui a.Wwi a.Wvi b (ix2 r n) := by
  unfold preJ pre3
  refine congrArg (· + b (ix2 r n)) ?_
  exact joined_gate a ha a.Wui a.Wwi a.Wvi ha.Wui ha.Wwi ha.Wvi r _ n
    (fun k => by rw [Wall_u]; exact join4_0 _ _ _ _ k n _ (by show 128 * 0 + n.val = n.val; omega))
    (fun k => by rw [Wall_w]; exact join4_0 _ _ _ _ k n _ (by show 128 * 0 + n.val = n.val; omega))
    (fun k => by rw [Wall_v]; exact join4_0 _ _ _ _ k n _ (by show 128 * 0 + n.val = n.val; omega))

theorem preJ_f (a : Args) (ha : a.Real) (b : Mat 4096 128) (r : Fin 4096) (n : Fin 128) :
    preJ a 1 b (ix2 r n) = pre3 a a.Wuf a.Wwf a.Wvf b (ix2 r n) := by
  unfold preJ pre3
  refine congrArg (· + b (ix2 r n)) ?_
  exact joined_gate a ha a.Wuf a.Wwf a.Wvf ha.Wuf ha.Wwf ha.Wvf r _ n
    (fun k => by rw [Wall_u]; exact join4_1 _ _ _ _ k n _ (by show 128 * 1 + n.val = 128 + n.val; omega))
    (fun k => by rw [Wall_w]; exact join4_1 _ _ _ _ k n _ (by show 128 * 1 + n.val = 128 + n.val; omega))
    (fun k => by rw [Wall_v]; exact join4_1 _ _ _ _ k n _ (by show 128 * 1 + n.val = 128 + n.val; omega))

theorem preJ_o (a : Args) (ha : a.Real) (b : Mat 4096 128) (r : Fin 4096) (n : Fin 128) :
    preJ a 2 b (ix2 r n) = pre3 a a.Wuo a.Wwo a.Wvo b (ix2 r n) := by
  unfold preJ pre3
  refine congrArg (· + b (ix2 r n)) ?_
  exact joined_gate a ha a.Wuo a.Wwo a.Wvo ha.Wuo ha.Wwo ha.Wvo r _ n
    (fun k => by rw [Wall_u]; exact join4_2 _ _ _ _ k n _ (by show 128 * 2 + n.val = 256 + n.val; omega))
    (fun k => by rw [Wall_w]; exact join4_2 _ _ _ _ k n _ (by show 128 * 2 + n.val = 256 + n.val; omega))
    (fun k => by rw [Wall_v]; exact join4_2 _ _ _ _ k n _ (by show 128 * 2 + n.val = 256 + n.val; omega))

theorem preJ_g (a : Args) (ha : a.Real) (b : Mat 4096 128) (r : Fin 4096) (n : Fin 128) :
    preJ a 3 b (ix2 r n) = pre2 a a.Wug a.Wwg b (ix2 r n) := by
  unfold preJ pre2
  refine congrArg (· + b (ix2 r n)) ?_
  have h := joined_gate a ha a.Wug a.Wwg (fun _ => 0) ha.Wug ha.Wwg zero_real r
    ⟨128 * 3 + n.val, by omega⟩ n
    (fun k => by rw [Wall_u]; exact join4_3 _ _ _ _ k n _ (by show 128 * 3 + n.val = 384 + n.val; omega))
    (fun k => by rw [Wall_w]; exact join4_3 _ _ _ _ k n _ (by show 128 * 3 + n.val = 384 + n.val; omega))
    (fun k => by rw [Wall_v]; exact join4_3 _ _ _ _ k n _ (by show 128 * 3 + n.val = 384 + n.val; omega))
  rw [gc_zero, add_zero] at h
  exact h

/-! ## The cells -/

/-- With real entries, the joined arrangement computes the reference's new hidden state and new cell state. -/
theorem ker_eq_ref (a : Args) (ha : a.Real) : kerH a = refH a ∧ kerC a = refC a := by
  constructor
  · funext i
    obtain ⟨r, n, rfl⟩ : ∃ (r : Fin 4096) (n : Fin 128), i = ix2 r n := ⟨i 0, i 1, eq_ix2 i⟩
    unfold kerH refH
    rw [preJ_i a ha, preJ_f a ha, preJ_o a ha, preJ_g a ha]
  · funext i
    obtain ⟨r, n, rfl⟩ : ∃ (r : Fin 4096) (n : Fin 128), i = ix2 r n := ⟨i 0, i 1, eq_ix2 i⟩
    unfold kerC refC
    rw [preJ_i a ha, preJ_f a ha, preJ_g a ha]

end Cert.Spec

end
-- ==== Proof.lean ====
/-
  A graph-convolution LSTM cell over 4096 nodes: the kernel against its reference, on extended reals.

  Every gate's pre-activation is a sum of graph convolutions A · (Z · W) of the inputs X, the hidden state h and the
  cell state c. The reference computes the eleven convolutions one by one. The kernel joins the features into
  [X | h | c] and the weights into one 512 × 512 matrix on the host, and then, row block by row block, multiplies A once
  by the joined features and the product once by the joined weights, reads the four gates' pre-activations off the four
  128-lane bands of the result, adds the biases and applies the gates' tail
      c' = σ(σ(f) · c + σ(i) · tanh (tanh g)),   h' = tanh c' · σ(o).

  * Each program's frame: the two kernels' by the pipeline's frame theorem from the body's triple (`FrameK`,
    `FrameKI`); the reference's from its run.
  * The kernel's results are the specification's joined arrangement of the argument arrays (`KerValue`): the host
    joins read at coordinates (`KerHost`), the body's two matrix products and bands at coordinates (`KerPayload`), the
    eight row blocks tiling the results.
  * The reference's results are the specification's reference arrangement (`RefSide`).
  * The two arrangements agree when every entry is a real number (`Algebra`: the regrouping (A·Z)·W = A·(Z·W) and the
    split of the 512 joined lanes into the blocks of X, h and c distribute products over sums), and the precondition
    says every entry is (`Finite`).
  * The idealization rewrote nothing, so there is nothing to preserve.
-/
import proofs.«122012_g21629455302669_cont_8to1_1577_3_alg».proof.Defs
import proofs.«122012_g21629455302669_cont_8to1_1577_3_alg».proof.Proof.Gen.Kernel
import proofs.«122012_g21629455302669_cont_8to1_1577_3_alg».proof.Proof.Gen.KernelIdeal
import proofs.«122012_g21629455302669_cont_8to1_1577_3_alg».proof.Proof.Gen.ReferenceIdeal
import proofs.«122012_g21629455302669_cont_8to1_1577_3_alg».proof.Proof.Gen.Pre_finite_inputs
import proofs.«122012_g21629455302669_cont_8to1_1577_3_alg».proof.Proof.Gen.ReferenceIdeal.Run
import proofs.«122012_g21629455302669_cont_8to1_1577_3_alg».proof.Proof.Gen.ReferenceIdeal.Read
import proofs.«122012_g21629455302669_cont_8to1_1577_3_alg».proof.Proof.FrameK
import proofs.«122012_g21629455302669_cont_8to1_1577_3_alg».proof.Proof.FrameKI
import proofs.«122012_g21629455302669_cont_8to1_1577_3_alg».proof.Proof.KerValue
import proofs.«122012_g21629455302669_cont_8to1_1577_3_alg».proof.Proof.RefSide
import proofs.«122012_g21629455302669_cont_8to1_1577_3_alg».proof.Proof.Finite
import proofs.«122012_g21629455302669_cont_8to1_1577_3_alg».proof.Proof.Algebra
import Idealize.ShloMosaic.Adequacy
import Idealize.ShloMosaic.Init

noncomputable section

namespace Cert.Proof

open Idealize.ShloMosaic Idealize.SL.Sem

/-! ## The frames -/

theorem frame_k : Cert.frame_Kernel := fun m ρ _ => Cert.Kernel.Frame.frame m ρ

theorem frame_ki : Cert.frame_KernelIdeal := fun m ρ _ => Cert.KernelIdeal.Frame.frame m ρ

theorem frame_ri : Cert.frame_ReferenceIdeal := fun m ρ _ =>
  (θ_run Cert.ReferenceIdeal.defs _ _).mono (fun _ h c => (h c).2.2) (Cert.ReferenceIdeal.Value.run (F := Ideal) m ρ)

/-! ## The reference's arguments are the kernel's -/

/-- The reference's nineteen argument arrays on core `c`, as launched. -/
def refArgs (m' : (ℓ : Loc Cert.ReferenceIdeal.nD Cert.ReferenceIdeal.τ Cert.ReferenceIdeal.sig) → Buf (Elt Ideal) ℓ) (c : Dev Cert.KernelIdeal.nD) : Cert.Spec.Args :=
  ⟨(m' ((c.tc : Thread Cert.ReferenceIdeal.nD Cert.ReferenceIdeal.τ).loc Cert.ReferenceIdeal.main_arg0)),
   (m' ((c.tc : Thread Cert.ReferenceIdeal.nD Cert.ReferenceIdeal.τ).loc Cert.ReferenceIdeal.main_arg1)),
   (m' ((c.tc : Thread Cert.ReferenceIdeal.nD Cert.ReferenceIdeal.τ).loc Cert.ReferenceIdeal.main_arg2)),
   (m' ((c.tc : Thread Cert.ReferenceIdeal.nD Cert.ReferenceIdeal.τ).loc Cert.ReferenceIdeal.main_arg3)),
   (m' ((c.tc : Thread Cert.ReferenceIdeal.nD Cert.ReferenceIdeal.τ).loc Cert.ReferenceIdeal.main_arg4)),
   (m' ((c.tc : Thread Cert.ReferenceIdeal.nD Cert.ReferenceIdeal.τ).loc Cert.ReferenceIdeal.main_arg5)),
   (m' ((c.tc : Thread Cert.ReferenceIdeal.nD Cert.ReferenceIdeal.τ).loc Cert.ReferenceIdeal.main_arg6)),
   (m' ((c.tc : Thread Cert.ReferenceIdeal.nD Cert.ReferenceIdeal.τ).loc Cert.ReferenceIdeal.main_arg7)),
   (m' ((c.tc : Thread Cert.ReferenceIdeal.nD Cert.ReferenceIdeal.τ).loc Cert.ReferenceIdeal.main_arg8)),
   (m' ((c.tc : Thread Cert.ReferenceIdeal.nD Cert.ReferenceIdeal.τ).loc Cert.ReferenceIdeal.main_arg9)),
   (m' ((c.tc : Thread Cert.ReferenceIdeal.nD Cert.ReferenceIdeal.τ).loc Cert.ReferenceIdeal.main_arg10)),
   (m' ((c.tc : Thread Cert.ReferenceIdeal.nD Cert.ReferenceIdeal.τ).loc Cert.ReferenceIdeal.main_arg11)),
   (m' ((c.tc : Thread Cert.ReferenceIdeal.nD Cert.ReferenceIdeal.τ).loc Cert.ReferenceIdeal.main_arg12)),
   (m' ((c.tc : Thread Cert.ReferenceIdeal.nD Cert.ReferenceIdeal.τ).loc Cert.ReferenceIdeal.main_arg13)),
   (m' ((c.tc : Thread Cert.ReferenceIdeal.nD Cert.ReferenceIdeal.τ).loc Cert.ReferenceIdeal.main_arg14)),
   (m' ((c.tc : Thread Cert.ReferenceIdeal.nD Cert.ReferenceIdeal.τ).loc Cert.ReferenceIdeal.main_arg15)),
   (m' ((c.tc : Thread Cert.ReferenceIdeal.nD Cert.ReferenceIdeal.τ).loc Cert.ReferenceIdeal.main_arg16)),
   (m' ((c.tc : Thread Cert.ReferenceIdeal.nD Cert.ReferenceIdeal.τ).loc Cert.ReferenceIdeal.main_arg17)),
   (m' ((c.tc : Thread Cert.ReferenceIdeal.nD Cert.ReferenceIdeal.τ).loc Cert.ReferenceIdeal.main_arg18))⟩

theorem refArgs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    refArgs m' c = Cert.KernelIdeal.KerHost.args m c := by
  obtain ⟨e0, e1, e2, e3, e4, e5, e6, e7, e8, e9, e10, e11, e12, e13, e14, e15, e16, e17, e18⟩ := h
  unfold refArgs Cert.KernelIdeal.KerHost.args
  rw [e0, e1, e2, e3, e4, e5, e6, e7, e8, e9, e10, e11, e12, e13, e14, e15, e16, e17, e18]

/-! ## The results agree -/

theorem algebraic : Cert.algebraic_KernelIdeal_ReferenceIdeal := by
  intro m ρ m' ρ' hpre hagree
  refine ⟨fun c => Cert.Spec.kerH (Cert.KernelIdeal.KerHost.args m c), fun c => Cert.Spec.kerC (Cert.KernelIdeal.KerHost.args m c),
    Cert.KernelIdeal.KerValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · have hreal : (Cert.KernelIdeal.KerHost.args m c).Real := Cert.Finite.real_of_pre (hpre c)
    refine ((Cert.ReferenceIdeal.Read.val_main_v63_eq m' c).trans (Cert.RefSide.ref_h_args (refArgs m' c))).trans ?_
    rw [refArgs_eq m m' c (hagree c)]
    exact (Cert.Spec.ker_eq_ref _ hreal).1.symm
  · have hreal : (Cert.KernelIdeal.KerHost.args m c).Real := Cert.Finite.real_of_pre (hpre c)
    refine (Cert.RefSide.ref_c_args (refArgs m' c)).trans ?_
    rw [refArgs_eq m m' c (hagree c)]
    exact (Cert.Spec.ker_eq_ref _ hreal).2.symm

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
